-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x3200000 32) (main_arg2 : FVec F S1x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x1 : Shape := ⟨2, ![10000, 1]⟩
abbrev S10000x64 : Shape := ⟨2, ![10000, 64]⟩
abbrev S3300000x64 : Shape := ⟨2, ![3300000, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩
abbrev S1x1 : Shape := ⟨2, ![1, 1]⟩

abbrev nBuf : Space → Nat
  | .hbm => 152
  | .vmem => 30
  | .smem => 0
  | _ => 0

abbrev hbmTy0_0 (i : Nat) : BufTy := match i % 128 with
  | 0 => ⟨S100000x1, .f32⟩
  | 1 => ⟨S2x3200000, .i32⟩
  | 2 => ⟨S1x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x64, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x64, .f32⟩
  | 58 => ⟨S3300000x1, .f32⟩
  | 59 => ⟨S3300000x64, .f32⟩
  | 60 => ⟨S3300000x64, .f32⟩
  | 61 => ⟨S_, .f32⟩
  | 62 => ⟨S100000x64, .f32⟩
  | 63 => ⟨S3300000x1, .i32⟩
  | 64 => ⟨S100000x64, .f32⟩
  | 65 => ⟨S1x64, .f32⟩
  | 66 => ⟨S100000x64, .f32⟩
  | 67 => ⟨S100000x32, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S3300000, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000, .f32⟩
  | 86 => ⟨S3300000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000x32, .f32⟩
  | 96 => ⟨S3300000x1, .f32⟩
  | 97 => ⟨S3300000x32, .f32⟩
  | 98 => ⟨S3300000x32, .f32⟩
  | 99 => ⟨S_, .f32⟩
  | 100 => ⟨S100000x32, .f32⟩
  | 101 => ⟨S3300000x1, .i32⟩
  | 102 => ⟨S100000x32, .f32⟩
  | 103 => ⟨S1x32, .f32⟩
  | 104 => ⟨S100000x32, .f32⟩
  | 105 => ⟨S100000x1, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S_, .i32⟩
  | 116 => ⟨S3300000, .i32⟩
  | 117 => ⟨S3300000, .i1⟩
  | 118 => ⟨S_, .i32⟩
  | 119 => ⟨S3300000, .i32⟩
  | 120 => ⟨S3300000, .i32⟩
  | 121 => ⟨S3300000, .i32⟩
  | 122 => ⟨S3300000x1, .i32⟩
  | 123 => ⟨S3300000, .f32⟩
  | 124 => ⟨S3300000, .f32⟩
  | 125 => ⟨S_, .i32⟩
  | 126 => ⟨S3300000, .i32⟩
  | 127 => ⟨S3300000, .i1⟩
  | _ => ⟨S100000x1, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x1, .f32⟩
  | 6 => ⟨S3300000x1, .f32⟩
  | 7 => ⟨S3300000x1, .f32⟩
  | 8 => ⟨S_, .f32⟩
  | 9 => ⟨S100000x1, .f32⟩
  | 10 => ⟨S3300000x1, .i32⟩
  | 11 => ⟨S100000x1, .f32⟩
  | 12 => ⟨S1x1, .f32⟩
  | 13 => ⟨S100000x1, .f32⟩
  | 14 => ⟨S_, .f32⟩
  | 15 => ⟨S1, .f32⟩
  | 16 => ⟨S1, .f32⟩
  | 17 => ⟨S1, .f32⟩
  | 18 => ⟨S_, .f32⟩
  | 19 => ⟨S1, .f32⟩
  | 20 => ⟨S1, .f32⟩
  | 21 => ⟨S_, .f32⟩
  | 22 => ⟨S1, .f32⟩
  | 23 => ⟨S1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S1x1, .f32⟩
  | .local _ .vmem, ⟨28, _⟩ => ⟨S10000x1, .f32⟩
  | .local _ .vmem, ⟨29, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_18 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_20 : Ref sig .tc := ⟨.hbm, 125, rfl⟩
abbrev main_v93 : Ref sig .tc := ⟨.hbm, 126, rfl⟩
abbrev main_v94 : Ref sig .tc := ⟨.hbm, 127, rfl⟩
abbrev main_c_21 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_22 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_23 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_cst_25 : Ref sig .tc := ⟨.hbm, 149, rfl⟩
abbrev main_v112 : Ref sig .tc := ⟨.hbm, 150, rfl⟩
abbrev main_v113 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  reducesTo_S100000x1_S1_d0 : S100000x1.ReducesTo [0] S1
  h_S_ : 0 < S_.numel
  bcast_S_S1 : S_.BroadcastsInDim S1 (![] : Fin 0 → Fin S1.rank)
  scatter_S100000_S3300000x1_S3300000_n_0_0_1_wf : ScatterDims.WF S100000 S3300000x1 S3300000 [] [0] [0] 1
  dot_S10000x1_S1x64_S10000x64_1_0_0_1_n_n_wf : DotDims.WF S10000x1 S1x64 S10000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x1_S10000x1_1_0_0_1_n_n_wf : DotDims.WF S10000x32 S32x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v104) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S100000x32 : Shape := ⟨2, ![100000, 32]⟩
abbrev S3300000x32 : Shape := ⟨2, ![3300000, 32]⟩
abbrev S1x32 : Shape := ⟨2, ![1, 32]⟩
abbrev S1x1 : Shape := ⟨2, ![1, 1]⟩

abbrev nBuf : Space → Nat
  | .hbm => 161
  | .vmem => 0
  | .smem => 0
  | _ => 0

abbrev hbmTy0_0 (i : Nat) : BufTy := match i % 128 with
  | 0 => ⟨S100000x1, .f32⟩
  | 1 => ⟨S2x3200000, .i32⟩
  | 2 => ⟨S1x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x64, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x64, .f32⟩
  | 58 => ⟨S3300000x1, .f32⟩
  | 59 => ⟨S3300000x64, .f32⟩
  | 60 => ⟨S3300000x64, .f32⟩
  | 61 => ⟨S_, .f32⟩
  | 62 => ⟨S100000x64, .f32⟩
  | 63 => ⟨S3300000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x32, .f32⟩
  | 72 => ⟨S_, .i32⟩
  | 73 => ⟨S3300000, .i32⟩
  | 74 => ⟨S3300000, .i1⟩
  | 75 => ⟨S_, .i32⟩
  | 76 => ⟨S3300000, .i32⟩
  | 77 => ⟨S3300000, .i32⟩
  | 78 => ⟨S3300000, .i32⟩
  | 79 => ⟨S3300000x1, .i32⟩
  | 80 => ⟨S3300000, .f32⟩
  | 81 => ⟨S_, .i32⟩
  | 82 => ⟨S3300000, .i32⟩
  | 83 => ⟨S3300000, .i1⟩
  | 84 => ⟨S_, .i32⟩
  | 85 => ⟨S3300000, .i32⟩
  | 86 => ⟨S3300000, .i32⟩
  | 87 => ⟨S3300000, .i32⟩
  | 88 => ⟨S3300000x1, .i32⟩
  | 89 => ⟨S3300000, .f32⟩
  | 90 => ⟨S3300000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000x32, .f32⟩
  | 100 => ⟨S3300000x1, .f32⟩
  | 101 => ⟨S3300000x32, .f32⟩
  | 102 => ⟨S3300000x32, .f32⟩
  | 103 => ⟨S_, .f32⟩
  | 104 => ⟨S100000x32, .f32⟩
  | 105 => ⟨S3300000x1, .i32⟩
  | 106 => ⟨S100000x32, .f32⟩
  | 107 => ⟨S1x32, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S100000x1, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000, .f32⟩
  | 123 => ⟨S_, .i32⟩
  | 124 => ⟨S3300000, .i32⟩
  | 125 => ⟨S3300000, .i1⟩
  | 126 => ⟨S_, .i32⟩
  | 127 => ⟨S3300000, .i32⟩
  | _ => ⟨S100000x1, .f32⟩

abbrev hbmTy0_1 (i : Nat) : BufTy := match i % 128 with
  | 0 => ⟨S3300000, .i32⟩
  | 1 => ⟨S3300000, .i32⟩
  | 2 => ⟨S3300000x1, .i32⟩
  | 3 => ⟨S3300000, .f32⟩
  | 4 => ⟨S3300000, .f32⟩
  | 5 => ⟨S_, .i32⟩
  | 6 => ⟨S3300000, .i32⟩
  | 7 => ⟨S3300000, .i1⟩
  | 8 => ⟨S_, .i32⟩
  | 9 => ⟨S3300000, .i32⟩
  | 10 => ⟨S3300000, .i32⟩
  | 11 => ⟨S3300000, .i32⟩
  | 12 => ⟨S3300000x1, .i32⟩
  | 13 => ⟨S3300000x1, .f32⟩
  | 14 => ⟨S3300000x1, .f32⟩
  | 15 => ⟨S3300000x1, .f32⟩
  | 16 => ⟨S_, .f32⟩
  | 17 => ⟨S100000x1, .f32⟩
  | 18 => ⟨S3300000x1, .i32⟩
  | 19 => ⟨S100000x1, .f32⟩
  | 20 => ⟨S1x1, .f32⟩
  | 21 => ⟨S100000x1, .f32⟩
  | 22 => ⟨S100000x1, .f32⟩
  | 23 => ⟨S_, .f32⟩
  | 24 => ⟨S1, .f32⟩
  | 25 => ⟨S1, .f32⟩
  | 26 => ⟨S1, .f32⟩
  | 27 => ⟨S_, .f32⟩
  | 28 => ⟨S1, .f32⟩
  | 29 => ⟨S1, .f32⟩
  | 30 => ⟨S_, .f32⟩
  | 31 => ⟨S1, .f32⟩
  | 32 => ⟨S1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_20 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_23 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_24 : Ref sig .tc := ⟨.hbm, 155, rfl⟩
abbrev main_v115 : Ref sig .tc := ⟨.hbm, 156, rfl⟩
abbrev main_v116 : Ref sig .tc := ⟨.hbm, 157, rfl⟩
abbrev main_cst_25 : Ref sig .tc := ⟨.hbm, 158, rfl⟩
abbrev main_v117 : Ref sig .tc := ⟨.hbm, 159, rfl⟩
abbrev main_v118 : Ref sig .tc := ⟨.hbm, 160, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1 : S_.BroadcastsInDim S1 (![] : Fin 0 → Fin S1.rank)
  scatter_S100000_S3300000x1_S3300000_n_0_0_1_wf : ScatterDims.WF S100000 S3300000x1 S3300000 [] [0] [0] 1
  dot_S100000x1_S1x64_S100000x64_1_0_0_1_n_n_wf : DotDims.WF S100000x1 S1x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Gcn.lean ====
/-
  The network both programs compute, as one function of the eight argument arrays, at any float instance.

  A graph of 100000 nodes and 3200000 directed edges (row 0 of the index array holds each edge's source, row 1 its
  target), to which every node's self-loop is appended: 3300000 edges. With d(v) = deg(v)^(-1/2), deg counting the edges
  that END at v (d = 0 where the degree is not positive), one graph-convolution layer sends node features h : [n, f] to

      out(v, ·) = Σ over edges (s → v) of  d(s) · d(v) · (h · W)(s, ·)   +  b ,

  and the network is three layers (1 → 64 → 32 → 1 features; relu after the first two) followed by the logistic
  function of the sum over all nodes of the last layer's single feature.

  Every piece below is spelled operation by operation as the reference program states it, so that the reference's
  result is `net` of its arguments by unfolding names, and each piece is ONE opaque function wherever the kernel's
  program applies the same operations: a gather, a scatter-add or the index arithmetic is never opened.
-/
import proofs.«107933_j30786325577983_1_alg».proof.Proof.Gen.ReferenceIdeal

noncomputable section

namespace Cert.Gcn

open Idealize.ShloMosaic Cert.ReferenceIdeal Cert.ReferenceIdeal.Gen

variable {F : FTy → Type} [FloatOps F]

/-- The sources of the 3300000 edges: row 0 of the index array, then the self-loops 0, 1, …, 99999. -/
def srcOf (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The targets of the edges: row 1 of the index array, then the self-loops. -/
def dstOf (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- The degree of every node: one for each edge that ends at it. -/
def degOf (dst : IVec S3300000 32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32))

/-- d(v) = deg(v)^(-1/2) where the degree is positive, and 0 elsewhere. -/
def invSqrtDeg (dst : IVec S3300000 32) : FVec F S100000 .f32 :=
  select (cmpf (F := F) .ogt (degOf dst) (broadcastInDim S100000 ![] bcast_S_S100000 (constant S_ .f32 0x00000000#32))) (Host.rsqrt (degOf dst)) (broadcastInDim S100000 ![] bcast_S_S100000 (id (constant S_ .f32 0x00000000#32)))

/-- An endpoint list as a gather's index column: a negative index counts from the end (100000 is added to it). -/
def wrapIdx (r : IVec S3300000 32) : IVec S3300000x1 32 :=
  broadcastInDim S3300000x1 ![0] bcast_S3300000_S3300000x1_0 (select (cmpi .slt r (broadcastInDim S3300000 ![] bcast_S_S3300000 (constantI S_ 32 0#32))) (addi r (broadcastInDim S3300000 ![] bcast_S_S3300000 (constantI S_ 32 100000#32))) r)

/-- The weight of each edge: d(source) · d(target). -/
def edgeWeight (src dst : IVec S3300000 32) (d : FVec F S100000 .f32) : FVec F S3300000 .f32 :=
  mulf (Host.gather gather_S100000_S3300000x1_S3300000_n_0_n_n_0_1_1 d (wrapIdx src)) (Host.gather gather_S100000_S3300000x1_S3300000_n_0_n_n_0_1_1 d (wrapIdx dst))

/-- Aggregation over the edges, 64 features: each node receives the sum, over the edges ending at it, of the edge's
    weight times the source node's row of `h`. -/
def aggregate64 (src dst : IVec S3300000 32) (d : FVec F S100000 .f32) (h : FVec F S100000x64 .f32) : FVec F S100000x64 .f32 :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 dst) (mulf (Host.gather gather_S100000x64_S3300000x1_S3300000x64_1_0_n_n_0_1_164 h (wrapIdx src)) (broadcastInDim S3300000x64 ![0, 1] bcast_S3300000x1_S3300000x64_0_1 (broadcastInDim S3300000x1 ![0] bcast_S3300000_S3300000x1_0 (edgeWeight src dst d))))

/-- The same aggregation over 32 features. -/
def aggregate32 (src dst : IVec S3300000 32) (d : FVec F S100000 .f32) (h : FVec F S100000x32 .f32) : FVec F S100000x32 .f32 :=
  Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 dst) (mulf (Host.gather gather_S100000x32_S3300000x1_S3300000x32_1_0_n_n_0_1_132 h (wrapIdx src)) (broadcastInDim S3300000x32 ![0, 1] bcast_S3300000x1_S3300000x32_0_1 (broadcastInDim S3300000x1 ![0] bcast_S3300000_S3300000x1_0 (edgeWeight src dst d))))

/-- The same aggregation over a single feature. -/
def aggregate1 (src dst : IVec S3300000 32) (d : FVec F S100000 .f32) (h : FVec F S100000x1 .f32) : FVec F S100000x1 .f32 :=
  Host.scatterAdd scatter_S100000x1_S3300000x1_S3300000x1_1_0_0_1 (broadcastInDim S100000x1 ![] bcast_S_S100000x1 (constant S_ .f32 0x00000000#32)) (broadcastInDim S3300000x1 ![0] bcast_S3300000_S3300000x1_0 dst) (mulf (Host.gather gather_S100000x1_S3300000x1_S3300000x1_1_0_n_n_0_1_11 h (wrapIdx src)) (broadcastInDim S3300000x1 ![0] bcast_S3300000_S3300000x1_0 (edgeWeight src dst d)))

/-- The logistic function of the sum of the last layer's feature over all nodes: 1 / (1 + exp (−Σ_v h(v))). -/
def readout (h : FVec F S100000x1 .f32) : FVec F S1 .f32 :=
  Host.divf (broadcastInDim S1 ![] bcast_S_S1 (constant S_ .f32 0x3F800000#32)) (addf (broadcastInDim S1 ![] bcast_S_S1 (constant S_ .f32 0x3F800000#32)) (Host.exp (Host.negf (Host.reduceAdd h (constant S_ .f32 0x00000000#32) reducesTo_S100000x1_S1_d0 h_S_))))

/-- A one-row array `r : [1, 64]` added to every node's row, then relu (the maximum with 0). -/
def biasRelu64Row (a : FVec F S100000x64 .f32) (r : FVec F S1x64 .f32) : FVec F S100000x64 .f32 :=
  maximumf (addf a (broadcastInDim S100000x64 ![0, 1] bcast_S1x64_S100000x64_0_1 r)) (broadcastInDim S100000x64 ![] bcast_S_S100000x64 (constant S_ .f32 0x00000000#32))

/-- A layer's bias added to every node's row, then relu: 64 features. -/
def biasRelu64 (a : FVec F S100000x64 .f32) (b : FVec F S64 .f32) : FVec F S100000x64 .f32 :=
  biasRelu64Row a (broadcastInDim S1x64 ![1] bcast_S64_S1x64_1 b)

/-- A one-row array `r : [1, 32]` added to every node's row, then relu. -/
def biasRelu32Row (a : FVec F S100000x32 .f32) (r : FVec F S1x32 .f32) : FVec F S100000x32 .f32 :=
  maximumf (addf a (broadcastInDim S100000x32 ![0, 1] bcast_S1x32_S100000x32_0_1 r)) (broadcastInDim S100000x32 ![] bcast_S_S100000x32 (constant S_ .f32 0x00000000#32))

/-- A layer's bias added to every node's row, then relu: 32 features. -/
def biasRelu32 (a : FVec F S100000x32 .f32) (b : FVec F S32 .f32) : FVec F S100000x32 .f32 :=
  biasRelu32Row a (broadcastInDim S1x32 ![1] bcast_S32_S1x32_1 b)

/-- A one-entry array `r : [1, 1]` added to every node's single feature (no relu). -/
def bias1Row (a : FVec F S100000x1 .f32) (r : FVec F S1x1 .f32) : FVec F S100000x1 .f32 :=
  addf a (broadcastInDim S100000x1 ![0, 1] bcast_S1x1_S100000x1_0_1 r)

/-- The last layer's bias added to every node (no relu). -/
def bias1 (a : FVec F S100000x1 .f32) (b : FVec F S1 .f32) : FVec F S100000x1 .f32 :=
  bias1Row a (broadcastInDim S1x1 ![1] bcast_S1_S1x1_1 b)

/-- The features times a layer's weight matrix, for each of the three layers. -/
def lin1 (x : FVec F S100000x1 .f32) (w : FVec F S1x64 .f32) : FVec F S100000x64 .f32 :=
  Host.dotGeneral dot_S100000x1_S1x64_S100000x64_1_0_0_1_n_n none x w
def lin2 (x : FVec F S100000x64 .f32) (w : FVec F S64x32 .f32) : FVec F S100000x32 .f32 :=
  Host.dotGeneral dot_S100000x64_S64x32_S100000x32_1_0_0_1_n_n none x w
def lin3 (x : FVec F S100000x32 .f32) (w : FVec F S32x1 .f32) : FVec F S100000x1 .f32 :=
  Host.dotGeneral dot_S100000x32_S32x1_S100000x1_1_0_0_1_n_n none x w

/-- The three layers' outputs, each from the layer before. -/
def layer1 (x : FVec F S100000x1 .f32) (e : IVec S2x3200000 32) (w1 : FVec F S1x64 .f32) (b1 : FVec F S64 .f32) : FVec F S100000x64 .f32 :=
  biasRelu64 (aggregate64 (srcOf e) (dstOf e) (invSqrtDeg (dstOf e)) (lin1 x w1)) b1
def layer2 (h1 : FVec F S100000x64 .f32) (e : IVec S2x3200000 32) (w2 : FVec F S64x32 .f32) (b2 : FVec F S32 .f32) : FVec F S100000x32 .f32 :=
  biasRelu32 (aggregate32 (srcOf e) (dstOf e) (invSqrtDeg (dstOf e)) (lin2 h1 w2)) b2
def layer3 (h2 : FVec F S100000x32 .f32) (e : IVec S2x3200000 32) (w3 : FVec F S32x1 .f32) (b3 : FVec F S1 .f32) : FVec F S100000x1 .f32 :=
  bias1 (aggregate1 (srcOf e) (dstOf e) (invSqrtDeg (dstOf e)) (lin3 h2 w3)) b3

/-- THE NETWORK: the result array as one function of the eight argument arrays. -/
def net (x : FVec F S100000x1 .f32) (e : IVec S2x3200000 32) (w1 : FVec F S1x64 .f32) (b1 : FVec F S64 .f32)
    (w2 : FVec F S64x32 .f32) (b2 : FVec F S32 .f32) (w3 : FVec F S32x1 .f32) (b3 : FVec F S1 .f32) : FVec F S1 .f32 :=
  readout (layer3 (layer2 (layer1 x e w1 b1) e w2 b2) e w3 b3)

end Cert.Gcn

end
-- ==== Proof.RefValue.lean ====
/-
  The reference program's run, read against the specification: every weakly fair execution ends with its result buffer
  at `Gcn.net` of the eight argument arrays, the arguments unchanged. The run's own composed term is the network's
  operations written out in full; folding the names of `Gcn` back over it is all there is to prove.
-/
import proofs.«107933_j30786325577983_1_alg».proof.Proof.RefRun
import proofs.«107933_j30786325577983_1_alg».proof.Proof.Gcn

noncomputable section

namespace Cert.ReferenceIdeal.Hand

open Idealize.ShloMosaic Idealize.ShloMosaic.TcCoe Idealize.SL.Sem
open Cert.ReferenceIdeal Cert.ReferenceIdeal.Gen Cert.ReferenceIdeal.ValueP

variable {F : FTy → Type} [FloatOps F]

/-- The network at the reference's argument arrays on core `c`. -/
abbrev netOf (m : (ℓ : Loc nD τ sig) → Buf (Elt F) ℓ) (c : Dev nD) : Buf (Elt F) ((c.tc : Thread nD τ).loc main_v118) :=
  Cert.Gcn.net (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

set_option maxRecDepth 8192 in
/-- The run's composed term is the network: the same operations, named. -/
theorem res_eq_net (m : (ℓ : Loc nD τ sig) → Buf (Elt F) ℓ) (c : Dev nD) : res_main_v118 (F := F) m c = netOf m c := by
  unfold res_main_v118 netOf Cert.Gcn.net Cert.Gcn.layer3 Cert.Gcn.layer2 Cert.Gcn.layer1 Cert.Gcn.bias1 Cert.Gcn.biasRelu32
    Cert.Gcn.biasRelu64 Cert.Gcn.bias1Row Cert.Gcn.biasRelu32Row Cert.Gcn.biasRelu64Row Cert.Gcn.lin3 Cert.Gcn.lin2 Cert.Gcn.lin1 Cert.Gcn.readout Cert.Gcn.aggregate1 Cert.Gcn.aggregate32
    Cert.Gcn.aggregate64 Cert.Gcn.edgeWeight Cert.Gcn.wrapIdx Cert.Gcn.invSqrtDeg Cert.Gcn.degOf Cert.Gcn.dstOf Cert.Gcn.srcOf
  rfl

/-- The reference's run with its result at the network of its arguments. -/
theorem run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = netOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res_eq_net m c), (h c).2⟩) (Cert.ReferenceIdeal.ValueP.run (F := F) m ρ)

end Cert.ReferenceIdeal.Hand

end
-- ==== Proof.KernelRun.lean ====
/-
  The idealized kernel program's run, with its result buffer named.

  From any launch memory with zero counters, every weakly fair execution of the program on the TensorCores
  terminates, nothing faulting, and in every final state the result buffer holds the contents the fold of the
  program's segments (host stretches and pipelined regions, from the launch memory) assigns to it at the last
  boundary, while each of the eight argument arrays holds what it held at launch.

  The run is the segment-by-segment launch over the program's generated segments; the final thread state (every
  unscoped buffer at the last boundary's contents) is read against the final memory, once at the result buffer
  and once at each argument.
-/
import proofs.«107933_j30786325577983_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The result buffer is not a scoped one, so the final thread state holds it. -/
theorem result_unscoped : ¬ (Proc.devRef .tc main_v113 : DevRef τ sig).isScoped := by decide

-- the launch lemma's implicit arguments are found by unifying its conclusion with this one, which takes unfolding
-- plain definitions in a metavariable's type
set_option backward.isDefEq.respectTransparency.types false in
/-- The run: termination without fault, the result buffer at the last boundary's contents, the arguments as
    launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v113) = W12 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v113 result_unscoped),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Hand

end
-- ==== Proof.Kept.lean ====
/-
  Buffers that no later segment writes keep their contents through the fold of the program's segments.

  The fold assigns to every segment boundary the contents of every buffer: a host stretch rewrites the result
  buffer of each of its operations and leaves the rest; a pipelined region rewrites its own arrays and leaves the rest.
  Hence a buffer that is the result of no operation of a stretch passes through the stretch unchanged, and a buffer
  that is none of a region's arrays passes through the region unchanged.

  Two families of consequences are recorded. An argument array, which nothing writes, still holds its launch
  contents at the boundary just before the region that reads it (and at every earlier boundary). The three host
  results computed before the first region (the edge sources, the edge targets, the degree normalisation), which
  later segments only read, hold at the exits of the first, third and fifth regions what they held at the first
  region's entry.
-/
import proofs.«107933_j30786325577983_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ) (ρ : Dev nD → PrngReg)

/-- Closes `∀ op ∈ ops, b ∉ op.writes` for a literal list of host operations `ops` and a literal buffer `b`:
    each operation writes its one result buffer, which is a different reference. -/
local macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The steps, at any buffer -/

section Steps
variable (c : Dev nD) (b : Ref sig .tc)

/-- Through the two host stretches before the first region: back to the launch memory. -/
theorem W2_of_launch
    (h0 : ∀ op ∈ (hostOps0 : List (HloOp τ sig (Elt F))), (Proc.devRef .tc b : DevRef τ sig) ∉ op.writes)
    (h1 : ∀ op ∈ (hostOps0_1 : List (HloOp τ sig (Elt F))), (Proc.devRef .tc b : DevRef τ sig) ∉ op.writes) :
    W2 m ρ c (Proc.devRef .tc b) = m ((c : Thread nD τ).loc b) :=
  calc W2 m ρ c (Proc.devRef .tc b)
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- Through the second host stretch and the second region. -/
theorem W5_of_W3
    (hh : ∀ op ∈ (hostOps1 : List (HloOp τ sig (Elt F))), (Proc.devRef .tc b : DevRef τ sig) ∉ op.writes)
    (h1 : ∀ w, Pipeline.arrRef spec1 w ≠ b) :
    W5 m ρ c (Proc.devRef .tc b) = W3 m ρ c (Proc.devRef .tc b) :=
  calc W5 m ρ c (Proc.devRef .tc b)
    _ = W4 m ρ c (Proc.devRef .tc b) := W5_of_ne m ρ c b h1
    _ = W3 m ρ c (Proc.devRef .tc b) := StableHlo.after_of_forall_not_mem _ _ hh

/-- … and the third region. -/
theorem W6_of_W3
    (hh : ∀ op ∈ (hostOps1 : List (HloOp τ sig (Elt F))), (Proc.devRef .tc b : DevRef τ sig) ∉ op.writes)
    (h1 : ∀ w, Pipeline.arrRef spec1 w ≠ b) (h2 : ∀ w, Pipeline.arrRef spec2 w ≠ b) :
    W6 m ρ c (Proc.devRef .tc b) = W3 m ρ c (Proc.devRef .tc b) :=
  (W6_of_ne m ρ c b h2).trans (W5_of_W3 m ρ c b hh h1)

/-- Through the third host stretch and the fourth region. -/
theorem W8_of_W6
    (hh : ∀ op ∈ (hostOps3 : List (HloOp τ sig (Elt F))), (Proc.devRef .tc b : DevRef τ sig) ∉ op.writes)
    (h3 : ∀ w, Pipeline.arrRef spec3 w ≠ b) :
    W8 m ρ c (Proc.devRef .tc b) = W6 m ρ c (Proc.devRef .tc b) :=
  calc W8 m ρ c (Proc.devRef .tc b)
    _ = W7 m ρ c (Proc.devRef .tc b) := W8_of_ne m ρ c b h3
    _ = W6 m ρ c (Proc.devRef .tc b) := StableHlo.after_of_forall_not_mem _ _ hh

/-- … and the fifth region. -/
theorem W9_of_W6
    (hh : ∀ op ∈ (hostOps3 : List (HloOp τ sig (Elt F))), (Proc.devRef .tc b : DevRef τ sig) ∉ op.writes)
    (h3 : ∀ w, Pipeline.arrRef spec3 w ≠ b) (h4 : ∀ w, Pipeline.arrRef spec4 w ≠ b) :
    W9 m ρ c (Proc.devRef .tc b) = W6 m ρ c (Proc.devRef .tc b) :=
  (W9_of_ne m ρ c b h4).trans (W8_of_W6 m ρ c b hh h3)

end Steps

/-! ## The arguments at the first region's entry -/

theorem W2_arg0 (c : Dev nD) : W2 m ρ c (Proc.devRef .tc main_arg0) = m ((c : Thread nD τ).loc main_arg0) :=
  W2_of_launch m ρ c main_arg0 (by not_written hostOps0) (by not_written hostOps0_1)
theorem W2_arg2 (c : Dev nD) : W2 m ρ c (Proc.devRef .tc main_arg2) = m ((c : Thread nD τ).loc main_arg2) :=
  W2_of_launch m ρ c main_arg2 (by not_written hostOps0) (by not_written hostOps0_1)
theorem W2_arg3 (c : Dev nD) : W2 m ρ c (Proc.devRef .tc main_arg3) = m ((c : Thread nD τ).loc main_arg3) :=
  W2_of_launch m ρ c main_arg3 (by not_written hostOps0) (by not_written hostOps0_1)
theorem W2_arg4 (c : Dev nD) : W2 m ρ c (Proc.devRef .tc main_arg4) = m ((c : Thread nD τ).loc main_arg4) :=
  W2_of_launch m ρ c main_arg4 (by not_written hostOps0) (by not_written hostOps0_1)
theorem W2_arg5 (c : Dev nD) : W2 m ρ c (Proc.devRef .tc main_arg5) = m ((c : Thread nD τ).loc main_arg5) :=
  W2_of_launch m ρ c main_arg5 (by not_written hostOps0) (by not_written hostOps0_1)
theorem W2_arg6 (c : Dev nD) : W2 m ρ c (Proc.devRef .tc main_arg6) = m ((c : Thread nD τ).loc main_arg6) :=
  W2_of_launch m ρ c main_arg6 (by not_written hostOps0) (by not_written hostOps0_1)
theorem W2_arg7 (c : Dev nD) : W2 m ρ c (Proc.devRef .tc main_arg7) = m ((c : Thread nD τ).loc main_arg7) :=
  W2_of_launch m ρ c main_arg7 (by not_written hostOps0) (by not_written hostOps0_1)

/-! ## Each later argument at the boundary before the region that reads it -/

theorem W3_arg3 (c : Dev nD) : W3 m ρ c (Proc.devRef .tc main_arg3) = m ((c : Thread nD τ).loc main_arg3) :=
  (W3_of_ne m ρ c main_arg3 (by decide)).trans (W2_arg3 m ρ c)

theorem W5_arg4 (c : Dev nD) : W5 m ρ c (Proc.devRef .tc main_arg4) = m ((c : Thread nD τ).loc main_arg4) :=
  (W5_of_W3 m ρ c main_arg4 (by not_written hostOps1) (by decide)).trans
    ((W3_of_ne m ρ c main_arg4 (by decide)).trans (W2_arg4 m ρ c))

theorem W6_arg5 (c : Dev nD) : W6 m ρ c (Proc.devRef .tc main_arg5) = m ((c : Thread nD τ).loc main_arg5) :=
  (W6_of_W3 m ρ c main_arg5 (by not_written hostOps1) (by decide) (by decide)).trans
    ((W3_of_ne m ρ c main_arg5 (by decide)).trans (W2_arg5 m ρ c))

theorem W8_arg6 (c : Dev nD) : W8 m ρ c (Proc.devRef .tc main_arg6) = m ((c : Thread nD τ).loc main_arg6) :=
  (W8_of_W6 m ρ c main_arg6 (by not_written hostOps3) (by decide)).trans
    ((W6_of_W3 m ρ c main_arg6 (by not_written hostOps1) (by decide) (by decide)).trans
      ((W3_of_ne m ρ c main_arg6 (by decide)).trans (W2_arg6 m ρ c)))

theorem W9_arg7 (c : Dev nD) : W9 m ρ c (Proc.devRef .tc main_arg7) = m ((c : Thread nD τ).loc main_arg7) :=
  (W9_of_W6 m ρ c main_arg7 (by not_written hostOps3) (by decide) (by decide)).trans
    ((W6_of_W3 m ρ c main_arg7 (by not_written hostOps1) (by decide) (by decide)).trans
      ((W3_of_ne m ρ c main_arg7 (by decide)).trans (W2_arg7 m ρ c)))

/-! ## The host results of the first two stretches at the regions' exits -/

theorem W3_v3 (c : Dev nD) : W3 m ρ c (Proc.devRef .tc main_v3) = W2 m ρ c (Proc.devRef .tc main_v3) :=
  W3_of_ne m ρ c main_v3 (by decide)
theorem W6_v3 (c : Dev nD) : W6 m ρ c (Proc.devRef .tc main_v3) = W2 m ρ c (Proc.devRef .tc main_v3) :=
  (W6_of_W3 m ρ c main_v3 (by not_written hostOps1) (by decide) (by decide)).trans (W3_v3 m ρ c)
theorem W9_v3 (c : Dev nD) : W9 m ρ c (Proc.devRef .tc main_v3) = W2 m ρ c (Proc.devRef .tc main_v3) :=
  (W9_of_W6 m ρ c main_v3 (by not_written hostOps3) (by decide) (by decide)).trans (W6_v3 m ρ c)

theorem W3_v6 (c : Dev nD) : W3 m ρ c (Proc.devRef .tc main_v6) = W2 m ρ c (Proc.devRef .tc main_v6) :=
  W3_of_ne m ρ c main_v6 (by decide)
theorem W6_v6 (c : Dev nD) : W6 m ρ c (Proc.devRef .tc main_v6) = W2 m ρ c (Proc.devRef .tc main_v6) :=
  (W6_of_W3 m ρ c main_v6 (by not_written hostOps1) (by decide) (by decide)).trans (W3_v6 m ρ c)
theorem W9_v6 (c : Dev nD) : W9 m ρ c (Proc.devRef .tc main_v6) = W2 m ρ c (Proc.devRef .tc main_v6) :=
  (W9_of_W6 m ρ c main_v6 (by not_written hostOps3) (by decide) (by decide)).trans (W6_v6 m ρ c)

theorem W3_v14 (c : Dev nD) : W3 m ρ c (Proc.devRef .tc main_v14) = W2 m ρ c (Proc.devRef .tc main_v14) :=
  W3_of_ne m ρ c main_v14 (by decide)
theorem W6_v14 (c : Dev nD) : W6 m ρ c (Proc.devRef .tc main_v14) = W2 m ρ c (Proc.devRef .tc main_v14) :=
  (W6_of_W3 m ρ c main_v14 (by not_written hostOps1) (by decide) (by decide)).trans (W3_v14 m ρ c)
theorem W9_v14 (c : Dev nD) : W9 m ρ c (Proc.devRef .tc main_v14) = W2 m ρ c (Proc.devRef .tc main_v14) :=
  (W9_of_W6 m ρ c main_v14 (by not_written hostOps3) (by decide) (by decide)).trans (W6_v14 m ρ c)

end Cert.KernelIdeal.Hand

end
-- ==== Proof.HostStretch.lean ====
/-
  Each stretch of host operations of the kernel's program, applied to ANY contents of the buffers, leaves in every
  buffer the later code reads the value of ONE named function (Gcn.lean) of the buffers the stretch read:

    the first two stretches  : the edges' sources and targets (the index array's rows, the self-loops appended), and
                               d(v) = deg(v)^(-1/2) (0 where the degree is not positive);
    the stretch before each aggregation's bias kernel : the aggregation  Σ over edges (s → v) of d(s) · d(v) · h(s, ·)
                               of the features h the preceding matmul kernel left, and the layer's bias as one row;
    the last stretch         : the logistic function of the sum over all nodes of the last layer's feature.

  Each is the fold of the stretch's operations read at its result buffer, which is the named function by unfolding.
-/
import proofs.«107933_j30786325577983_1_alg».proof.Proof.Gen.KernelIdeal.Launch
import proofs.«107933_j30786325577983_1_alg».proof.Proof.Gcn
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-- The first two stretches leave the edges' sources: row 0 of the index array, then the self-loops. -/
theorem host0_v3 (Wv : Valuation τ sig (Elt F)) :
    StableHlo.after hostOps0_1 (StableHlo.after hostOps0 Wv) (Proc.devRef .tc main_v3) = Cert.Gcn.srcOf (Wv (Proc.devRef .tc main_arg1)) := by
  after_results_simp <;> rfl

/-- The first two stretches leave the edges' targets: row 1 of the index array, then the self-loops. -/
theorem host0_v6 (Wv : Valuation τ sig (Elt F)) :
    StableHlo.after hostOps0_1 (StableHlo.after hostOps0 Wv) (Proc.devRef .tc main_v6) = Cert.Gcn.dstOf (Wv (Proc.devRef .tc main_arg1)) := by
  after_results_simp <;> rfl

/-- The first two stretches leave d(v) = deg(v)^(-1/2) where the degree (the number of edges ending at v) is positive, 0 elsewhere. -/
theorem host0_v14 (Wv : Valuation τ sig (Elt F)) :
    StableHlo.after hostOps0_1 (StableHlo.after hostOps0 Wv) (Proc.devRef .tc main_v14)
      = Cert.Gcn.invSqrtDeg (F := F) (Cert.Gcn.dstOf (Wv (Proc.devRef .tc main_arg1))) := by
  after_results_simp <;> rfl

/-- The stretch after the first matmul kernel leaves the aggregation, over the edges, of the 64-feature rows it read. -/
theorem host1_v43 (Wv : Valuation τ sig (Elt F)) :
    StableHlo.after hostOps1 Wv (Proc.devRef .tc main_v43)
      = Cert.Gcn.aggregate64 (Wv (Proc.devRef .tc main_v3)) (Wv (Proc.devRef .tc main_v6)) (Wv (Proc.devRef .tc main_v14)) (Wv (Proc.devRef .tc main_v15)) := by
  after_results_simp <;> rfl

/-- The same stretch leaves the first layer's bias as one row. -/
theorem host1_v44 (Wv : Valuation τ sig (Elt F)) :
    StableHlo.after hostOps1 Wv (Proc.devRef .tc main_v44) = shapeCast S1x64 (Wv (Proc.devRef .tc main_arg3)) shapeCasts_S64_S1x64 := by
  after_results_simp <;> rfl

/-- The stretch after the second matmul kernel leaves the aggregation, over the edges, of the 32-feature rows it read. -/
theorem host3_v74 (Wv : Valuation τ sig (Elt F)) :
    StableHlo.after hostOps3 Wv (Proc.devRef .tc main_v74)
      = Cert.Gcn.aggregate32 (Wv (Proc.devRef .tc main_v3)) (Wv (Proc.devRef .tc main_v6)) (Wv (Proc.devRef .tc main_v14)) (Wv (Proc.devRef .tc main_v46)) := by
  after_results_simp <;> rfl

/-- The same stretch leaves the second layer's bias as one row. -/
theorem host3_v75 (Wv : Valuation τ sig (Elt F)) :
    StableHlo.after hostOps3 Wv (Proc.devRef .tc main_v75) = shapeCast S1x32 (Wv (Proc.devRef .tc main_arg5)) shapeCasts_S32_S1x32 := by
  after_results_simp <;> rfl

/-- The stretch after the third matmul kernel leaves the aggregation, over the edges, of the single feature it read. -/
theorem host5_v104 (Wv : Valuation τ sig (Elt F)) :
    StableHlo.after hostOps5 Wv (Proc.devRef .tc main_v104)
      = Cert.Gcn.aggregate1 (Wv (Proc.devRef .tc main_v3)) (Wv (Proc.devRef .tc main_v6)) (Wv (Proc.devRef .tc main_v14)) (Wv (Proc.devRef .tc main_v77)) := by
  after_results_simp <;> rfl

/-- The same stretch leaves the third layer's bias as one row. -/
theorem host5_v105 (Wv : Valuation τ sig (Elt F)) :
    StableHlo.after hostOps5 Wv (Proc.devRef .tc main_v105) = shapeCast S1x1 (Wv (Proc.devRef .tc main_arg7)) shapeCasts_S1_S1x1 := by
  after_results_simp <;> rfl

/-- The last stretch leaves the logistic function of the sum of the last layer's feature over all nodes. -/
theorem host6_v113 (Wv : Valuation τ sig (Elt F)) :
    StableHlo.after hostOps6 Wv (Proc.devRef .tc main_v113) = Cert.Gcn.readout (Wv (Proc.devRef .tc main_v106)) := by
  after_results_simp <;> rfl

end Cert.KernelIdeal.Hand

end
-- ==== Proof.LibDotPlain.lean ====
/-
  A plain matrix product read at an entry.

  For dimension numbers that contract the left operand's axis 1 with the right operand's axis 0 and have no batch axes
  (an [M, K] matrix times a [K, N] matrix), the sum over the contraction shape that both a kernel's matrix product into
  a zero accumulator and a host dot product are, at the extended reals, is the textbook sum over k < K of
  x(p, k) · w(k, q): the left operand's index at output entry (p, q) and contraction position k is (p, k), the right
  operand's is (k, q), and a one-axis contraction position is its one coordinate.
-/
import Idealize.ShloMosaic.Lib.ValueIdx
import Idealize.ShloMosaic.PureOps.Ideal.Laws

noncomputable section

namespace Idealize.ShloMosaic.DotPlain

open Idealize.ShloMosaic Idealize.ShloMosaic.ValueIdx

variable {M K N : Nat} (D : DotDims ⟨2, ![M, K]⟩ ⟨2, ![K, N]⟩ ⟨2, ![M, N]⟩)

/-- The left operand's row coordinate is the output entry's row. -/
theorem lhs_row (hln : D.lhsNonContracting = [0]) (hlb : D.lhsBatch = []) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- The right operand's column coordinate is the output entry's column. -/
theorem rhs_col (hln : D.lhsNonContracting = [0]) (hrn : D.rhsNonContracting = [1]) (hlb : D.lhsBatch = []) (hrb : D.rhsBatch = [])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- THE SUM: over the contraction shape it is the sum over `k < K` of `x (p, k) · w (k, q)`. -/
theorem sum_eq (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hln hlb _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhs_col D hln hrn hlb hrb _ _)
  rw [el, er]

end Idealize.ShloMosaic.DotPlain

end
-- ==== Proof.Lin1Region.lean ====
/-
  Region 0: the first layer's matrix product, block by block.

  The grid has 10 points; point t loads rows 10000·t … 10000·t + 9999 of the node features x : [100000, 1] and the whole
  weight matrix w : [1, 64], multiplies them into a zero accumulator and writes the product back as the same rows of the
  output. An entry (r, q) of the output is therefore Σ_{k < 1} x(r, k) · w(k, q) whichever block r lies in, which is the
  entry of the whole product x · w: after the region the output array is `Gcn.lin1` of the two arrays the region read.
  (The casts to bf16 before the product are the identity on the extended reals.)
-/
import proofs.«107933_j30786325577983_1_alg».proof.Proof.Gen.KernelIdeal.Frame
import proofs.«107933_j30786325577983_1_alg».proof.Proof.Gcn
import proofs.«107933_j30786325577983_1_alg».proof.Proof.LibDotPlain
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem zero_off0 : (![0, 0] : Fin 2 → Nat) = fun _ => 0 := funext fun a => by fin_cases a <;> rfl

/-- Where each window's block sits at point `t`: the features' and the output's blocks at row block `t`, the weights' block
    the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_ten0 (t : Fin cfg0.N) : t.val < 10 :=
  Nat.lt_of_lt_of_eq t.isLt (show cfg0.N = 10 from N_0)

/-- The block product at an entry: the sum over the one contracted position. -/
theorem pay0_apply (x : Vec Ideal S10000x1 .f32) (w : Vec Ideal S1x64 .f32) (p : Fin 10000) (q : Fin 64) :
    k0_pay1 (F := Ideal) x w (ix2 p q) = ∑ k : Fin 1, x (ix2 p k) * w (ix2 k q) := by
  unfold k0_pay1
  exact (Ideal.matmul_constant_zero_apply dot_S10000x1_S1x64_S10000x64_1_0_0_1_n_n none _ _ _).trans
    (DotPlain.sum_eq (M := 10000) (K := 1) (N := 64) dot_S10000x1_S1x64_S10000x64_1_0_0_1_n_n rfl rfl rfl rfl rfl rfl rfl rfl _ _ p q)

/-- The whole product at an entry: the same sum. -/
theorem lin1_apply (X : FVec Ideal Cert.ReferenceIdeal.S100000x1 .f32) (W : FVec Ideal Cert.ReferenceIdeal.S1x64 .f32)
    (r : Fin 100000) (q : Fin 64) :
    Cert.Gcn.lin1 X W (ix2 r q) = ∑ k : Fin 1, X (ix2 r k) * W (ix2 k q) := by
  unfold Cert.Gcn.lin1
  simp only [Host.dotGeneral]
  exact (Ideal.dotGeneral_apply Cert.ReferenceIdeal.dot_S100000x1_S1x64_S100000x64_1_0_0_1_n_n none _ X W _).trans
    (DotPlain.sum_eq (M := 100000) (K := 1) (N := 64) Cert.ReferenceIdeal.dot_S100000x1_S1x64_S100000x64_1_0_0_1_n_n rfl rfl rfl rfl rfl rfl rfl rfl _ _ r q)

/-- The features' block at point `t` is rows 10000·t … of the features array. -/
theorem iblk0_0_apply (c : Dev nD) (t : Fin cfg0.N) (y : S10000x1.Idx) (i : S100000x1.Idx)
    (h0 : (i 0).val = t.val * 10000 + (y 0).val) (h1 : (i 1).val = (y 1).val) :
    (iblk0 V c 0 t : Vec Ideal S10000x1 .f32) y = (V c main_arg0 : S100000x1.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 1 + 1 * (y 1).val = (i 1).val; rw [e1, h1]; omega

/-- The weights' block at every point is the whole weight matrix. -/
theorem iblk0_1_apply (c : Dev nD) (t : Fin cfg0.N) (y : S1x64.Idx) :
    (iblk0 V c 1 t : Vec Ideal S1x64 .f32) y = (V c main_arg2 : S1x64.Idx → EReal) y := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t 0 * 1 + 1 * (y 0).val = (y 0).val; rw [e2]; omega
  | ⟨1, _⟩ => show win0_1.index t 1 * 64 + 1 * (y 1).val = (y 1).val; rw [e3]; omega

/-- WHAT POINT `t` WRITES BACK is block `t` of the whole product. -/
theorem flushed0 (c : Dev nD) (t : Fin cfg0.N) :
    (dat0 V c).flushed 2 t = ((cfg0.win 2).blk t).view.read (Elt Ideal) (Cert.Gcn.lin1 (F := Ideal) (V c main_arg0) (V c main_arg2)) := by
  show (cfg0.win 2).cut (grid0.coords t) ((dat0 V c).after 2 t) = _
  rw [after0_2]
  unfold out0_2
  rw [View.canon_unit_zero zero_off0]
  simp only [View.ld_unit_zero (S := S10000x1) zero_off0, View.ld_unit_zero (S := S1x64) zero_off0]
  have ht := lt_ten0 t
  obtain ⟨-, -, -, -, e4, e5⟩ := idx0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = Cert.Gcn.lin1 (F := Ideal) (V c main_arg0) (V c main_arg2) (((cfg0.win 2).blk t).view.emb (ix2 p q))
  have he : ((cfg0.win 2).blk t).view.emb (ix2 p q) = ix2 (⟨t.val * 10000 + p.val, by omega⟩ : Fin 100000) q :=
    funext fun a => Fin.ext (by
      match a with
      | ⟨0, _⟩ => show win0_2.index t 0 * 10000 + 1 * p.val = t.val * 10000 + p.val; rw [e4]; omega
      | ⟨1, _⟩ => show win0_2.index t 1 * 64 + 1 * q.val = q.val; rw [e5]; omega)
  rw [he]
  refine (pay0_apply (iblk0 V c 0 t) (iblk0 V c 1 t) p q).trans ?_
  refine Eq.trans ?_ (lin1_apply (V c main_arg0) (V c main_arg2) ⟨t.val * 10000 + p.val, by omega⟩ q).symm
  refine Finset.sum_congr rfl fun k _ => ?_
  rw [iblk0_0_apply V c t (ix2 p k) (ix2 (⟨t.val * 10000 + p.val, by omega⟩ : Fin 100000) k) rfl rfl,
    iblk0_1_apply V c t (ix2 k q)]

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v15).slice (win0_2.rect t)).set ↔ _
  rw [View.set_slice_whole, Rect.mem_set_unit]
  exact Iff.rfl

/-- Every row lies in the block of the point its row number divided by 10000 names. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 10000, by rw [show cfg0.N = 10 from N_0]; omega⟩, flush0_2 _, ?_⟩
  rw [mem_blk0]
  obtain ⟨-, -, -, -, e4, e5⟩ := idx0 ⟨(i 0).val / 10000, by rw [show cfg0.N = 10 from N_0]; omega⟩
  intro a
  match a with
  | ⟨0, _⟩ =>
    show win0_2.index _ 0 * 10000 ≤ (i 0).val ∧ (i 0).val < win0_2.index _ 0 * 10000 + 10000
    rw [e4]
    show (i 0).val / 10000 * 10000 ≤ (i 0).val ∧ (i 0).val < (i 0).val / 10000 * 10000 + 10000
    omega
  | ⟨1, _⟩ =>
    show win0_2.index _ 1 * 64 ≤ (i 1).val ∧ (i 1).val < win0_2.index _ 1 * 64 + 64
    rw [e5]
    omega

/-- THE OUTPUT ARRAY after the region: the whole product of the two arrays the region read. -/
theorem lin1_region (c : Dev nD) :
    (dat0 (F := Ideal) V c).arrAt 2 cfg0.N = Cert.Gcn.lin1 (F := Ideal) (V c main_arg0) (V c main_arg2) :=
  (dat0 V c).arrAt_eq_of_cover 2 (Cert.Gcn.lin1 (F := Ideal) (V c main_arg0) (V c main_arg2)) (fun t _ => flushed0 V c t) cover0

end Cert.KernelIdeal.Hand

end
-- ==== Proof.Lin2Region.lean ====
/-
  The second matrix-product kernel as one function of the arrays it reads (the second layer's features times its weights).

  The kernel runs over a grid of 10 points. At point t it loads rows 10000·t … 10000·t + 9999 (all 64 columns) of the
  feature array X : [100000, 64] and the whole weight matrix W : [64, 32], and writes back, as rows 10000·t … 10000·t + 9999
  of the output, the matrix product of the two loaded blocks into a zero accumulator. On the extended reals the changes of
  number format before the product are the identity, so entry (p, q) of the block written at point t is
  Σ over k < 64 of X(10000·t + p, k) · W(k, q): entry (10000·t + p, q) of the whole product X · W. The ten blocks tile the
  output's rows, so after the kernel the output array is X · W, the function `Gcn.lin2` of the two arrays read.
-/
import proofs.«107933_j30786325577983_1_alg».proof.Proof.Gen.KernelIdeal.Frame
import proofs.«107933_j30786325577983_1_alg».proof.Proof.Gcn
import proofs.«107933_j30786325577983_1_alg».proof.Proof.LibDotPlain
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The offsets of an access to a whole block are zero on both axes. -/
theorem zero_off2 : (![0, 0] : Fin 2 → Nat) = fun _ => 0 := funext fun a => by fin_cases a <;> rfl

/-- The block indices at point t, decided over the ten points: the features' window and the output's window sit at row
    block t, the weights' window at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A grid point's number is below ten. -/
theorem lt_ten2 (t : Fin cfg2.N) : t.val < 10 :=
  Nat.lt_of_lt_of_eq t.isLt (show cfg2.N = 10 from N_2)

/-- An entry of the product of two blocks into a zero accumulator: the sum over the 64 contracted positions. -/
theorem pay2_apply (x : Vec Ideal S10000x64 .f32) (w : Vec Ideal S64x32 .f32) (p : Fin 10000) (q : Fin 32) :
    k2_pay1 (F := Ideal) x w (ix2 p q) = ∑ k : Fin 64, x (ix2 p k) * w (ix2 k q) := by
  unfold k2_pay1
  refine (Ideal.matmul_constant_zero_apply dot_S10000x64_S64x32_S10000x32_1_0_0_1_n_n none _ _ _).trans ?_
  simp only [truncf_apply, shapeCast_self]
  exact DotPlain.sum_eq (M := 10000) (K := 64) (N := 32) dot_S10000x64_S64x32_S10000x32_1_0_0_1_n_n rfl rfl rfl rfl rfl rfl rfl rfl _ _ p q

/-- An entry of the whole product X · W: the same sum. -/
theorem lin2_apply (X : FVec Ideal Cert.ReferenceIdeal.S100000x64 .f32) (W : FVec Ideal Cert.ReferenceIdeal.S64x32 .f32)
    (r : Fin 100000) (q : Fin 32) :
    Cert.Gcn.lin2 X W (ix2 r q) = ∑ k : Fin 64, X (ix2 r k) * W (ix2 k q) := by
  unfold Cert.Gcn.lin2
  simp only [Host.dotGeneral]
  exact (Ideal.dotGeneral_apply Cert.ReferenceIdeal.dot_S100000x64_S64x32_S100000x32_1_0_0_1_n_n none _ X W _).trans
    (DotPlain.sum_eq (M := 100000) (K := 64) (N := 32) Cert.ReferenceIdeal.dot_S100000x64_S64x32_S100000x32_1_0_0_1_n_n rfl rfl rfl rfl rfl rfl rfl rfl _ _ r q)

/-- The features' block at point t is rows 10000·t … 10000·t + 9999 of the feature array. -/
theorem iblk2_0_apply (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c main_v45 : S100000x64.Idx → EReal) i := by
  obtain ⟨e0, e1, -⟩ := idx2 t
  unfold iblk2
  rw [View.read_apply]
  show V c main_v45 _ = V c main_v45 _
  congr 1
  funext a
  apply Fin.ext
  match a with
  | ⟨0, _⟩ => show win2_0.index t 0 * 10000 + 1 * (y 0).val = (i 0).val; rw [e0, h0]; omega
  | ⟨1, _⟩ => show win2_0.index t 1 * 64 + 1 * (y 1).val = (i 1).val; rw [e1, h1]; omega

/-- The weights' block at every point is the whole weight matrix. -/
theorem iblk2_1_apply (c : Dev nD) (t : Fin cfg2.N) (y : S64x32.Idx) :
    (iblk2 V c 1 t : Vec Ideal S64x32 .f32) y = (V c main_arg4 : S64x32.Idx → EReal) y := by
  obtain ⟨-, -, e2, e3, -⟩ := idx2 t
  unfold iblk2
  rw [View.read_apply]
  show V c main_arg4 _ = V c main_arg4 _
  congr 1
  funext a
  apply Fin.ext
  match a with
  | ⟨0, _⟩ => show win2_1.index t 0 * 64 + 1 * (y 0).val = (y 0).val; rw [e2]; omega
  | ⟨1, _⟩ => show win2_1.index t 1 * 32 + 1 * (y 1).val = (y 1).val; rw [e3]; omega

/-- What point t writes back is block t of the whole product. -/
theorem flushed2 (c : Dev nD) (t : Fin cfg2.N) :
    (dat2 V c).flushed 2 t = ((cfg2.win 2).blk t).view.read (Elt Ideal) (Cert.Gcn.lin2 (F := Ideal) (V c main_v45) (V c main_arg4)) := by
  show (cfg2.win 2).cut (grid2.coords t) ((dat2 V c).after 2 t) = _
  rw [after2_2]
  unfold out2_2
  rw [View.canon_unit_zero zero_off2]
  simp only [View.ld_unit_zero (S := S10000x64) zero_off2, View.ld_unit_zero (S := S64x32) zero_off2]
  have ht := lt_ten2 t
  obtain ⟨-, -, -, -, e4, e5⟩ := idx2 t
  funext j
  obtain ⟨p, q, rfl⟩ : ∃ (p : Fin 10000) (q : Fin 32), j = ix2 p q := ⟨j 0, j 1, eq_ix2 j⟩
  show k2_pay1 (iblk2 V c 0 t) (iblk2 V c 1 t) (ix2 p q)
    = Cert.Gcn.lin2 (F := Ideal) (V c main_v45) (V c main_arg4) (((cfg2.win 2).blk t).view.emb (ix2 p q))
  have he : ((cfg2.win 2).blk t).view.emb (ix2 p q) = ix2 (⟨t.val * 10000 + p.val, by omega⟩ : Fin 100000) q :=
    funext fun a => Fin.ext (by
      match a with
      | ⟨0, _⟩ => show win2_2.index t 0 * 10000 + 1 * p.val = t.val * 10000 + p.val; rw [e4]; omega
      | ⟨1, _⟩ => show win2_2.index t 1 * 32 + 1 * q.val = q.val; rw [e5]; omega)
  rw [he]
  refine (pay2_apply (iblk2 V c 0 t) (iblk2 V c 1 t) p q).trans ?_
  refine Eq.trans ?_ (lin2_apply (V c main_v45) (V c main_arg4) ⟨t.val * 10000 + p.val, by omega⟩ q).symm
  refine Finset.sum_congr rfl fun k _ => ?_
  rw [iblk2_0_apply V c t (ix2 p k) (ix2 (⟨t.val * 10000 + p.val, by omega⟩ : Fin 100000) k) rfl rfl,
    iblk2_1_apply V c t (ix2 k q)]

/-- An index of the output array is in point t's block iff each of its coordinates is in the block's range on its axis. -/
theorem mem_blk2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v46).slice (win2_2.rect t)).set ↔ _
  rw [View.set_slice_whole, Rect.mem_set_unit]
  exact Iff.rfl

/-- Row r of the output lies in the block of point r / 10000, which is written back. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  refine ⟨⟨(i 0).val / 10000, by rw [show cfg2.N = 10 from N_2]; omega⟩, flush2_2 _, ?_⟩
  rw [mem_blk2]
  obtain ⟨-, -, -, -, e4, e5⟩ := idx2 ⟨(i 0).val / 10000, by rw [show cfg2.N = 10 from N_2]; omega⟩
  intro a
  match a with
  | ⟨0, _⟩ =>
    show win2_2.index _ 0 * 10000 ≤ (i 0).val ∧ (i 0).val < win2_2.index _ 0 * 10000 + 10000
    rw [e4]
    show (i 0).val / 10000 * 10000 ≤ (i 0).val ∧ (i 0).val < (i 0).val / 10000 * 10000 + 10000
    omega
  | ⟨1, _⟩ =>
    show win2_2.index _ 1 * 32 ≤ (i 1).val ∧ (i 1).val < win2_2.index _ 1 * 32 + 32
    rw [e5]
    omega

/-- THE OUTPUT ARRAY after the kernel: the whole product of the two arrays it read. -/
theorem lin2_region (c : Dev nD) :
    (dat2 (F := Ideal) V c).arrAt 2 cfg2.N = Cert.Gcn.lin2 (F := Ideal) (V c main_v45) (V c main_arg4) :=
  (dat2 V c).arrAt_eq_of_cover 2 (Cert.Gcn.lin2 (F := Ideal) (V c main_v45) (V c main_arg4)) (fun t _ => flushed2 V c t) cover2

end Cert.KernelIdeal.Hand

end
-- ==== Proof.Lin3Region.lean ====
/-
  The third matrix-product kernel as one function of the arrays it reads (the third layer's features times its weights).

  The kernel runs over a grid of 10 points. At point t it loads rows 10000·t … 10000·t + 9999 (all 32 columns) of the
  feature array X : [100000, 32] and the whole weight matrix W : [32, 1], and writes back, as rows 10000·t … 10000·t + 9999
  of the output, the matrix product of the two loaded blocks into a zero accumulator. On the extended reals the changes of
  number format before the product are the identity, so entry (p, q) of the block written at point t is
  Σ over k < 32 of X(10000·t + p, k) · W(k, q): entry (10000·t + p, q) of the whole product X · W. The ten blocks tile the
  output's rows, so after the kernel the output array is X · W, the function `Gcn.lin3` of the two arrays read.
-/
import proofs.«107933_j30786325577983_1_alg».proof.Proof.Gen.KernelIdeal.Frame
import proofs.«107933_j30786325577983_1_alg».proof.Proof.Gcn
import proofs.«107933_j30786325577983_1_alg».proof.Proof.LibDotPlain
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The offsets of an access to a whole block are zero on both axes. -/
theorem zero_off4 : (![0, 0] : Fin 2 → Nat) = fun _ => 0 := funext fun a => by fin_cases a <;> rfl

/-- The block indices at point t, decided over the ten points: the features' window and the output's window sit at row
    block t, the weights' window at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A grid point's number is below ten. -/
theorem lt_ten4 (t : Fin cfg4.N) : t.val < 10 :=
  Nat.lt_of_lt_of_eq t.isLt (show cfg4.N = 10 from N_4)

/-- An entry of the product of two blocks into a zero accumulator: the sum over the 32 contracted positions. -/
theorem pay4_apply (x : Vec Ideal S10000x32 .f32) (w : Vec Ideal S32x1 .f32) (p : Fin 10000) (q : Fin 1) :
    k4_pay1 (F := Ideal) x w (ix2 p q) = ∑ k : Fin 32, x (ix2 p k) * w (ix2 k q) := by
  unfold k4_pay1
  refine (Ideal.matmul_constant_zero_apply dot_S10000x32_S32x1_S10000x1_1_0_0_1_n_n none _ _ _).trans ?_
  simp only [truncf_apply, shapeCast_self]
  exact DotPlain.sum_eq (M := 10000) (K := 32) (N := 1) dot_S10000x32_S32x1_S10000x1_1_0_0_1_n_n rfl rfl rfl rfl rfl rfl rfl rfl _ _ p q

/-- An entry of the whole product X · W: the same sum. -/
theorem lin3_apply (X : FVec Ideal Cert.ReferenceIdeal.S100000x32 .f32) (W : FVec Ideal Cert.ReferenceIdeal.S32x1 .f32)
    (r : Fin 100000) (q : Fin 1) :
    Cert.Gcn.lin3 X W (ix2 r q) = ∑ k : Fin 32, X (ix2 r k) * W (ix2 k q) := by
  unfold Cert.Gcn.lin3
  simp only [Host.dotGeneral]
  exact (Ideal.dotGeneral_apply Cert.ReferenceIdeal.dot_S100000x32_S32x1_S100000x1_1_0_0_1_n_n none _ X W _).trans
    (DotPlain.sum_eq (M := 100000) (K := 32) (N := 1) Cert.ReferenceIdeal.dot_S100000x32_S32x1_S100000x1_1_0_0_1_n_n rfl rfl rfl rfl rfl rfl rfl rfl _ _ r q)

/-- The features' block at point t is rows 10000·t … 10000·t + 9999 of the feature array. -/
theorem iblk4_0_apply (c : Dev nD) (t : Fin cfg4.N) (y : S10000x32.Idx) (i : S100000x32.Idx)
    (h0 : (i 0).val = t.val * 10000 + (y 0).val) (h1 : (i 1).val = (y 1).val) :
    (iblk4 V c 0 t : Vec Ideal S10000x32 .f32) y = (V c main_v76 : S100000x32.Idx → EReal) i := by
  obtain ⟨e0, e1, -⟩ := idx4 t
  unfold iblk4
  rw [View.read_apply]
  show V c main_v76 _ = V c main_v76 _
  congr 1
  funext a
  apply Fin.ext
  match a with
  | ⟨0, _⟩ => show win4_0.index t 0 * 10000 + 1 * (y 0).val = (i 0).val; rw [e0, h0]; omega
  | ⟨1, _⟩ => show win4_0.index t 1 * 32 + 1 * (y 1).val = (i 1).val; rw [e1, h1]; omega

/-- The weights' block at every point is the whole weight matrix. -/
theorem iblk4_1_apply (c : Dev nD) (t : Fin cfg4.N) (y : S32x1.Idx) :
    (iblk4 V c 1 t : Vec Ideal S32x1 .f32) y = (V c main_arg6 : S32x1.Idx → EReal) y := by
  obtain ⟨-, -, e2, e3, -⟩ := idx4 t
  unfold iblk4
  rw [View.read_apply]
  show V c main_arg6 _ = V c main_arg6 _
  congr 1
  funext a
  apply Fin.ext
  match a with
  | ⟨0, _⟩ => show win4_1.index t 0 * 32 + 1 * (y 0).val = (y 0).val; rw [e2]; omega
  | ⟨1, _⟩ => show win4_1.index t 1 * 1 + 1 * (y 1).val = (y 1).val; rw [e3]; omega

/-- What point t writes back is block t of the whole product. -/
theorem flushed4 (c : Dev nD) (t : Fin cfg4.N) :
    (dat4 V c).flushed 2 t = ((cfg4.win 2).blk t).view.read (Elt Ideal) (Cert.Gcn.lin3 (F := Ideal) (V c main_v76) (V c main_arg6)) := by
  show (cfg4.win 2).cut (grid4.coords t) ((dat4 V c).after 2 t) = _
  rw [after4_2]
  unfold out4_2
  rw [View.canon_unit_zero zero_off4]
  simp only [View.ld_unit_zero (S := S10000x32) zero_off4, View.ld_unit_zero (S := S32x1) zero_off4]
  have ht := lt_ten4 t
  obtain ⟨-, -, -, -, e4, e5⟩ := idx4 t
  funext j
  obtain ⟨p, q, rfl⟩ : ∃ (p : Fin 10000) (q : Fin 1), j = ix2 p q := ⟨j 0, j 1, eq_ix2 j⟩
  show k4_pay1 (iblk4 V c 0 t) (iblk4 V c 1 t) (ix2 p q)
    = Cert.Gcn.lin3 (F := Ideal) (V c main_v76) (V c main_arg6) (((cfg4.win 2).blk t).view.emb (ix2 p q))
  have he : ((cfg4.win 2).blk t).view.emb (ix2 p q) = ix2 (⟨t.val * 10000 + p.val, by omega⟩ : Fin 100000) q :=
    funext fun a => Fin.ext (by
      match a with
      | ⟨0, _⟩ => show win4_2.index t 0 * 10000 + 1 * p.val = t.val * 10000 + p.val; rw [e4]; omega
      | ⟨1, _⟩ => show win4_2.index t 1 * 1 + 1 * q.val = q.val; rw [e5]; omega)
  rw [he]
  refine (pay4_apply (iblk4 V c 0 t) (iblk4 V c 1 t) p q).trans ?_
  refine Eq.trans ?_ (lin3_apply (V c main_v76) (V c main_arg6) ⟨t.val * 10000 + p.val, by omega⟩ q).symm
  refine Finset.sum_congr rfl fun k _ => ?_
  rw [iblk4_0_apply V c t (ix2 p k) (ix2 (⟨t.val * 10000 + p.val, by omega⟩ : Fin 100000) k) rfl rfl,
    iblk4_1_apply V c t (ix2 k q)]

/-- An index of the output array is in point t's block iff each of its coordinates is in the block's range on its axis. -/
theorem mem_blk4 (t : Fin cfg4.N) (i : S100000x1.Idx) :
    i ∈ ((cfg4.win 2).blk t).view.set ↔ ∀ a : Fin 2, win4_2.index t a * S10000x1.size a ≤ (i a).val
      ∧ (i a).val < win4_2.index t a * S10000x1.size a + S10000x1.size a := by
  show i ∈ ((View.whole main_v77).slice (win4_2.rect t)).set ↔ _
  rw [View.set_slice_whole, Rect.mem_set_unit]
  exact Iff.rfl

/-- Row r of the output lies in the block of point r / 10000, which is written back. -/
theorem cover4 (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  refine ⟨⟨(i 0).val / 10000, by rw [show cfg4.N = 10 from N_4]; omega⟩, flush4_2 _, ?_⟩
  rw [mem_blk4]
  obtain ⟨-, -, -, -, e4, e5⟩ := idx4 ⟨(i 0).val / 10000, by rw [show cfg4.N = 10 from N_4]; omega⟩
  intro a
  match a with
  | ⟨0, _⟩ =>
    show win4_2.index _ 0 * 10000 ≤ (i 0).val ∧ (i 0).val < win4_2.index _ 0 * 10000 + 10000
    rw [e4]
    show (i 0).val / 10000 * 10000 ≤ (i 0).val ∧ (i 0).val < (i 0).val / 10000 * 10000 + 10000
    omega
  | ⟨1, _⟩ =>
    show win4_2.index _ 1 * 1 ≤ (i 1).val ∧ (i 1).val < win4_2.index _ 1 * 1 + 1
    rw [e5]
    omega

/-- THE OUTPUT ARRAY after the kernel: the whole product of the two arrays it read. -/
theorem lin3_region (c : Dev nD) :
    (dat4 (F := Ideal) V c).arrAt 2 cfg4.N = Cert.Gcn.lin3 (F := Ideal) (V c main_v76) (V c main_arg6) :=
  (dat4 V c).arrAt_eq_of_cover 2 (Cert.Gcn.lin3 (F := Ideal) (V c main_v76) (V c main_arg6)) (fun t _ => flushed4 V c t) cover4

end Cert.KernelIdeal.Hand

end
-- ==== Proof.Bias1Region.lean ====
/-
  The second region (the bias-and-relu pipeline of the first layer): its output array, after the region, as one
  function of the two arrays it read.

  The region is a pipeline over a grid of 10 points along one axis. Point t stages rows 10000·t … 10000·t + 9999
  (all 64 columns) of the node array, and the whole one-row array, computes in one vector expression

      out (p, q) = max (x (p, q) + r (0, q)) 0

  on the staged block and writes the result back as rows 10000·t … 10000·t + 9999 of the output array. The ten row
  blocks tile the 100000 rows, so the output array ends, at every index (n, q), at

      max (a (n, q) + r (0, q)) 0,

  which is the network's biasRelu64Row of the two arrays the region read, index by index.
-/
import proofs.«107933_j30786325577983_1_alg».proof.Proof.Gen.KernelIdeal.Frame
import proofs.«107933_j30786325577983_1_alg».proof.Proof.Gcn
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of the body's whole-block accesses, as the constant function. -/
theorem hz1 : (![0, 0] : Fin 2 → Nat) = fun _ => 0 := funext fun a => by fin_cases a <;> rfl

/-- The index maps over the grid: the node array's window and the output's move one block of rows per point,
    the one-row array's window stays at its only block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has 10 points. -/
theorem lt10_1 (t : Fin cfg1.N) : t.val < 10 :=
  Nat.lt_of_lt_of_eq t.isLt (show cfg1.N = 10 from N_1)

/-! ## The input blocks, entry by entry -/

/-- Point t's block of the node array is rows 10000·t … 10000·t + 9999. -/
theorem rows1_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v43 : S100000x64.Idx → EReal) i := by
  obtain ⟨e0, e1, -⟩ := idx1 t
  unfold iblk1
  rw [View.read_apply]
  show V c main_v43 _ = V c main_v43 _
  congr 1
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- Every point's block of the one-row array is the array. -/
theorem row1_apply (c : Dev nD) (t : Fin cfg1.N) (y : S1x64.Idx) :
    (iblk1 V c 1 t : Vec Ideal S1x64 .f32) y = (V c main_v44 : S1x64.Idx → EReal) y := by
  obtain ⟨-, -, e2, e3, -⟩ := idx1 t
  unfold iblk1
  rw [View.read_apply]
  show V c main_v44 _ = V c main_v44 _
  congr 1
  funext a
  apply Fin.ext
  match a with
  | ⟨0, _⟩ => show win1_1.index t 0 * 1 + 1 * (y 0).val = (y 0).val; rw [e2]; omega
  | ⟨1, _⟩ => show win1_1.index t 1 * 64 + 1 * (y 1).val = (y 1).val; rw [e3]; omega

/-! ## The body's arithmetic and the network's, entry by entry -/

/-- The body's one vector expression at entry (p, q). -/
theorem pay1_apply (x : Vec Ideal S10000x64 .f32) (r : Vec Ideal S1x64 .f32) (p : Fin 10000) (q : Fin 64) :
    k1_pay1 x r (ix2 p q) = max (x (ix2 p q) + r (ix2 0 q)) (Ideal.ofBits .f32 0x00000000#32) := by
  unfold k1_pay1
  rw [maximumf_apply, addf_apply, shapeCast_self, shapeCast_self, broadcast_apply,
    broadcastTo_apply r broadcasts_S1x64_S10000x64 (ix2 p q) (ix2 0 q) (fun a => by
      match a with
      | ⟨0, _⟩ => rfl
      | ⟨1, _⟩ => rfl)]
  rfl

/-- The network's function at entry (n, q). -/
theorem biasRelu64Row_apply (a : FVec Ideal S100000x64 .f32) (r : FVec Ideal S1x64 .f32) (n : Fin 100000) (q : Fin 64) :
    Cert.Gcn.biasRelu64Row (F := Ideal) a r (ix2 n q) = max (a (ix2 n q) + r (ix2 0 q)) (Ideal.ofBits .f32 0x00000000#32) := by
  unfold Cert.Gcn.biasRelu64Row
  rw [maximumf_apply, addf_apply,
    broadcastInDim_apply _ _ r (ix2 n q) (ix2 0 q) (fun a => by
      match a with
      | ⟨0, _⟩ => rfl
      | ⟨1, _⟩ => rfl),
    broadcastInDim_apply _ _ (constant S_ .f32 0x00000000#32) (ix2 n q) ix0 (fun a => a.elim0),
    constant_apply]

/-! ## What each point writes back, and the whole array -/

/-- Point t writes back block t of the network's function of the two arrays the region read. -/
theorem flushed1 (c : Dev nD) (t : Fin cfg1.N) :
    (dat1 (F := Ideal) V c).flushed 2 t
      = ((cfg1.win 2).blk t).view.read (Elt Ideal) (Cert.Gcn.biasRelu64Row (F := Ideal) (V c main_v43) (V c main_v44)) := by
  show (cfg1.win 2).cut (grid1.coords t) ((dat1 V c).after 2 t) = _
  rw [after1_2]
  unfold out1_2
  rw [View.canon_unit_zero hz1]
  simp only [View.ld_unit_zero (S := S10000x64) hz1, View.ld_unit_zero (S := S1x64) hz1]
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = Cert.Gcn.biasRelu64Row (F := Ideal) (V c main_v43) (V c main_v44) (((cfg1.win 2).blk t).view.emb (ix2 p q))
  have ht := lt10_1 t
  obtain ⟨-, -, -, -, e4, e5⟩ := idx1 t
  have hemb : ((cfg1.win 2).blk t).view.emb (ix2 p q)
      = (ix2 (⟨t.val * 10000 + p.val, by omega⟩ : Fin 100000) q : S100000x64.Idx) := by
    funext a
    apply Fin.ext
    match a with
    | ⟨0, _⟩ => show win1_2.index t 0 * 10000 + 1 * p.val = t.val * 10000 + p.val; rw [e4]; omega
    | ⟨1, _⟩ => show win1_2.index t 1 * 64 + 1 * q.val = q.val; rw [e5]; omega
  rw [hemb]
  refine (pay1_apply (iblk1 V c 0 t) (iblk1 V c 1 t) p q).trans ?_
  refine Eq.trans ?_ (biasRelu64Row_apply (V c main_v43) (V c main_v44) ⟨t.val * 10000 + p.val, by omega⟩ q).symm
  rw [rows1_apply V c t (ix2 p q) (ix2 (⟨t.val * 10000 + p.val, by omega⟩ : Fin 100000) q) rfl rfl,
    row1_apply V c t (ix2 0 q)]

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row n of the output array is in the block of point n / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 10000 < cfg1.N := by rw [show cfg1.N = 10 from N_1]; omega
  refine ⟨⟨(i 0).val / 10000, hlt⟩, flush1_2 _, ?_⟩
  rw [mem_blk1]
  obtain ⟨-, -, -, -, e4, e5⟩ := idx1 ⟨(i 0).val / 10000, hlt⟩
  intro a
  match a with
  | ⟨0, _⟩ =>
    show win1_2.index ⟨(i 0).val / 10000, hlt⟩ 0 * 10000 ≤ (i 0).val
      ∧ (i 0).val < win1_2.index ⟨(i 0).val / 10000, hlt⟩ 0 * 10000 + 10000
    rw [e4]
    show (i 0).val / 10000 * 10000 ≤ (i 0).val ∧ (i 0).val < (i 0).val / 10000 * 10000 + 10000
    omega
  | ⟨1, _⟩ =>
    show win1_2.index ⟨(i 0).val / 10000, hlt⟩ 1 * 64 ≤ (i 1).val
      ∧ (i 1).val < win1_2.index ⟨(i 0).val / 10000, hlt⟩ 1 * 64 + 64
    rw [e5]
    omega

/-- THE REGION: its output array ends at the network's function of the two arrays it read. -/
theorem biasRelu64_region (c : Dev nD) :
    (dat1 (F := Ideal) V c).arrAt 2 cfg1.N = Cert.Gcn.biasRelu64Row (F := Ideal) (V c main_v43) (V c main_v44) :=
  (dat1 V c).arrAt_eq_of_cover 2 _ (fun t _ => flushed1 V c t) (cover1)

end Cert.KernelIdeal.Hand

end
-- ==== Proof.Bias3Region.lean ====
/-
  The fourth region (the bias-and-relu pipeline of the second layer): its output array, after the region, as one
  function of the two arrays it read.

  The region is a pipeline over a grid of 10 points along one axis. Point t stages rows 10000·t … 10000·t + 9999
  (all 32 columns) of the node array, and the whole one-row array, computes in one vector expression

      out (p, q) = max (x (p, q) + r (0, q)) 0

  on the staged block and writes the result back as rows 10000·t … 10000·t + 9999 of the output array. The ten row
  blocks tile the 100000 rows, so the output array ends, at every index (n, q), at

      max (a (n, q) + r (0, q)) 0,

  which is the network's biasRelu32Row of the two arrays the region read, index by index.
-/
import proofs.«107933_j30786325577983_1_alg».proof.Proof.Gen.KernelIdeal.Frame
import proofs.«107933_j30786325577983_1_alg».proof.Proof.Gcn
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of the body's whole-block accesses, as the constant function. -/
theorem hz3 : (![0, 0] : Fin 2 → Nat) = fun _ => 0 := funext fun a => by fin_cases a <;> rfl

/-- The index maps over the grid: the node array's window and the output's move one block of rows per point,
    the one-row array's window stays at its only block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The grid has 10 points. -/
theorem lt10_3 (t : Fin cfg3.N) : t.val < 10 :=
  Nat.lt_of_lt_of_eq t.isLt (show cfg3.N = 10 from N_3)

/-! ## The input blocks, entry by entry -/

/-- Point t's block of the node array is rows 10000·t … 10000·t + 9999. -/
theorem rows3_apply (c : Dev nD) (t : Fin cfg3.N) (y : S10000x32.Idx) (i : S100000x32.Idx)
    (h0 : (i 0).val = t.val * 10000 + (y 0).val) (h1 : (i 1).val = (y 1).val) :
    (iblk3 V c 0 t : Vec Ideal S10000x32 .f32) y = (V c main_v74 : S100000x32.Idx → EReal) i := by
  obtain ⟨e0, e1, -⟩ := idx3 t
  unfold iblk3
  rw [View.read_apply]
  show V c main_v74 _ = V c main_v74 _
  congr 1
  funext a
  apply Fin.ext
  match a with
  | ⟨0, _⟩ => show win3_0.index t 0 * 10000 + 1 * (y 0).val = (i 0).val; rw [e0, h0]; omega
  | ⟨1, _⟩ => show win3_0.index t 1 * 32 + 1 * (y 1).val = (i 1).val; rw [e1, h1]; omega

/-- Every point's block of the one-row array is the array. -/
theorem row3_apply (c : Dev nD) (t : Fin cfg3.N) (y : S1x32.Idx) :
    (iblk3 V c 1 t : Vec Ideal S1x32 .f32) y = (V c main_v75 : S1x32.Idx → EReal) y := by
  obtain ⟨-, -, e2, e3, -⟩ := idx3 t
  unfold iblk3
  rw [View.read_apply]
  show V c main_v75 _ = V c main_v75 _
  congr 1
  funext a
  apply Fin.ext
  match a with
  | ⟨0, _⟩ => show win3_1.index t 0 * 1 + 1 * (y 0).val = (y 0).val; rw [e2]; omega
  | ⟨1, _⟩ => show win3_1.index t 1 * 32 + 1 * (y 1).val = (y 1).val; rw [e3]; omega

/-! ## The body's arithmetic and the network's, entry by entry -/

/-- The body's one vector expression at entry (p, q). -/
theorem pay3_apply (x : Vec Ideal S10000x32 .f32) (r : Vec Ideal S1x32 .f32) (p : Fin 10000) (q : Fin 32) :
    k3_pay1 x r (ix2 p q) = max (x (ix2 p q) + r (ix2 0 q)) (Ideal.ofBits .f32 0x00000000#32) := by
  unfold k3_pay1
  rw [maximumf_apply, addf_apply, shapeCast_self, shapeCast_self, broadcast_apply,
    broadcastTo_apply r broadcasts_S1x32_S10000x32 (ix2 p q) (ix2 0 q) (fun a => by
      match a with
      | ⟨0, _⟩ => rfl
      | ⟨1, _⟩ => rfl)]
  rfl

/-- The network's function at entry (n, q). -/
theorem biasRelu32Row_apply (a : FVec Ideal S100000x32 .f32) (r : FVec Ideal S1x32 .f32) (n : Fin 100000) (q : Fin 32) :
    Cert.Gcn.biasRelu32Row (F := Ideal) a r (ix2 n q) = max (a (ix2 n q) + r (ix2 0 q)) (Ideal.ofBits .f32 0x00000000#32) := by
  unfold Cert.Gcn.biasRelu32Row
  rw [maximumf_apply, addf_apply,
    broadcastInDim_apply _ _ r (ix2 n q) (ix2 0 q) (fun a => by
      match a with
      | ⟨0, _⟩ => rfl
      | ⟨1, _⟩ => rfl),
    broadcastInDim_apply _ _ (constant S_ .f32 0x00000000#32) (ix2 n q) ix0 (fun a => a.elim0),
    constant_apply]

/-! ## What each point writes back, and the whole array -/

/-- Point t writes back block t of the network's function of the two arrays the region read. -/
theorem flushed3 (c : Dev nD) (t : Fin cfg3.N) :
    (dat3 (F := Ideal) V c).flushed 2 t
      = ((cfg3.win 2).blk t).view.read (Elt Ideal) (Cert.Gcn.biasRelu32Row (F := Ideal) (V c main_v74) (V c main_v75)) := by
  show (cfg3.win 2).cut (grid3.coords t) ((dat3 V c).after 2 t) = _
  rw [after3_2]
  unfold out3_2
  rw [View.canon_unit_zero hz3]
  simp only [View.ld_unit_zero (S := S10000x32) hz3, View.ld_unit_zero (S := S1x32) hz3]
  funext j
  obtain ⟨p, q, rfl⟩ : ∃ (p : Fin 10000) (q : Fin 32), j = ix2 p q := ⟨j 0, j 1, eq_ix2 j⟩
  show k3_pay1 (iblk3 V c 0 t) (iblk3 V c 1 t) (ix2 p q)
    = Cert.Gcn.biasRelu32Row (F := Ideal) (V c main_v74) (V c main_v75) (((cfg3.win 2).blk t).view.emb (ix2 p q))
  have ht := lt10_3 t
  obtain ⟨-, -, -, -, e4, e5⟩ := idx3 t
  have hemb : ((cfg3.win 2).blk t).view.emb (ix2 p q)
      = (ix2 (⟨t.val * 10000 + p.val, by omega⟩ : Fin 100000) q : S100000x32.Idx) := by
    funext a
    apply Fin.ext
    match a with
    | ⟨0, _⟩ => show win3_2.index t 0 * 10000 + 1 * p.val = t.val * 10000 + p.val; rw [e4]; omega
    | ⟨1, _⟩ => show win3_2.index t 1 * 32 + 1 * q.val = q.val; rw [e5]; omega
  rw [hemb]
  refine (pay3_apply (iblk3 V c 0 t) (iblk3 V c 1 t) p q).trans ?_
  refine Eq.trans ?_ (biasRelu32Row_apply (V c main_v74) (V c main_v75) ⟨t.val * 10000 + p.val, by omega⟩ q).symm
  rw [rows3_apply V c t (ix2 p q) (ix2 (⟨t.val * 10000 + p.val, by omega⟩ : Fin 100000) q) rfl rfl,
    row3_apply V c t (ix2 0 q)]

/-- An index of the output array is in point t's block iff each coordinate is in the block's range on its axis. -/
theorem mem_blk3 (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v76).slice (win3_2.rect t)).set ↔ _
  rw [View.set_slice_whole, Rect.mem_set_unit]
  exact Iff.rfl

/-- Row n of the output array is in the block of point n / 10000. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hlt : (i 0).val / 10000 < cfg3.N := by rw [show cfg3.N = 10 from N_3]; omega
  refine ⟨⟨(i 0).val / 10000, hlt⟩, flush3_2 _, ?_⟩
  rw [mem_blk3]
  obtain ⟨-, -, -, -, e4, e5⟩ := idx3 ⟨(i 0).val / 10000, hlt⟩
  intro a
  match a with
  | ⟨0, _⟩ =>
    show win3_2.index ⟨(i 0).val / 10000, hlt⟩ 0 * 10000 ≤ (i 0).val
      ∧ (i 0).val < win3_2.index ⟨(i 0).val / 10000, hlt⟩ 0 * 10000 + 10000
    rw [e4]
    show (i 0).val / 10000 * 10000 ≤ (i 0).val ∧ (i 0).val < (i 0).val / 10000 * 10000 + 10000
    omega
  | ⟨1, _⟩ =>
    show win3_2.index ⟨(i 0).val / 10000, hlt⟩ 1 * 32 ≤ (i 1).val
      ∧ (i 1).val < win3_2.index ⟨(i 0).val / 10000, hlt⟩ 1 * 32 + 32
    rw [e5]
    omega

/-- THE REGION: its output array ends at the network's function of the two arrays it read. -/
theorem biasRelu32_region (c : Dev nD) :
    (dat3 (F := Ideal) V c).arrAt 2 cfg3.N = Cert.Gcn.biasRelu32Row (F := Ideal) (V c main_v74) (V c main_v75) :=
  (dat3 V c).arrAt_eq_of_cover 2 _ (fun t _ => flushed3 V c t) (cover3)

end Cert.KernelIdeal.Hand

end
-- ==== Proof.Bias5Region.lean ====
/-
  The last bias kernel as one function of the arrays it reads.

  The kernel runs over a grid of 10 points. At point t it loads rows 10000·t … 10000·t + 9999 of the aggregated feature
  array A : [100000, 1] and the whole one-entry bias array r : [1, 1], and writes back, as rows 10000·t … 10000·t + 9999 of the
  output, the loaded block with the bias broadcast along the rows added to it: entry (p, q) of the block written at point t
  is A(10000·t + p, q) + r(0, q), which is entry (10000·t + p, q) of A with r added to every row. The ten blocks tile the
  output's rows, so after the kernel the output array is the function `Gcn.bias1Row` of the two arrays read (this layer
  has no maximum with zero after the sum).
-/
import proofs.«107933_j30786325577983_1_alg».proof.Proof.Gen.KernelIdeal.Frame
import proofs.«107933_j30786325577983_1_alg».proof.Proof.Gcn
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The offsets of an access to a whole block are zero on both axes. -/
theorem zero_off5 : (![0, 0] : Fin 2 → Nat) = fun _ => 0 := funext fun a => by fin_cases a <;> rfl

/-- The block indices at point t, decided over the ten points: the features' window and the output's window sit at row
    block t, the bias window at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- A grid point's number is below ten. -/
theorem lt_ten5 (t : Fin cfg5.N) : t.val < 10 :=
  Nat.lt_of_lt_of_eq t.isLt (show cfg5.N = 10 from N_5)

/-- An entry of the kernel's payload: the block's entry plus the bias row's entry of the same column. -/
theorem pay5_apply (x : Vec Ideal S10000x1 .f32) (r : Vec Ideal S1x1 .f32) (p : Fin 10000) (q : Fin 1) :
    k5_pay1 (F := Ideal) x r (ix2 p q) = x (ix2 p q) + r (ix2 (0 : Fin 1) q) := by
  unfold k5_pay1
  simp only [shapeCast_self]
  show x (ix2 p q) + broadcastTo S10000x1 r broadcasts_S1x1_S10000x1 (ix2 p q) = _
  rw [broadcastTo_apply r broadcasts_S1x1_S10000x1 (ix2 p q) (ix2 (0 : Fin 1) q) (fun a => by
    match a with
    | ⟨0, _⟩ => exact (if_pos rfl).symm
    | ⟨1, _⟩ => exact (Fin.val_eq_zero q).trans (if_pos rfl).symm)]

/-- An entry of the whole array with the bias row added to every row: the same sum. -/
theorem bias1Row_apply5 (A : FVec Ideal Cert.ReferenceIdeal.S100000x1 .f32) (r : FVec Ideal Cert.ReferenceIdeal.S1x1 .f32)
    (j : Fin 100000) (q : Fin 1) :
    Cert.Gcn.bias1Row A r (ix2 j q) = A (ix2 j q) + r (ix2 (0 : Fin 1) q) := by
  unfold Cert.Gcn.bias1Row
  show A (ix2 j q) + broadcastInDim _ _ _ r (ix2 j q) = _
  rw [broadcastInDim_apply _ _ r (ix2 j q) (ix2 (0 : Fin 1) q) (fun a => by
    match a with
    | ⟨0, _⟩ => exact (if_pos rfl).symm
    | ⟨1, _⟩ => exact (Fin.val_eq_zero q).trans (if_pos rfl).symm)]

/-- The features' block at point t is rows 10000·t … 10000·t + 9999 of the feature array. -/
theorem iblk5_0_apply (c : Dev nD) (t : Fin cfg5.N) (y : S10000x1.Idx) (i : S100000x1.Idx)
    (h0 : (i 0).val = t.val * 10000 + (y 0).val) (h1 : (i 1).val = (y 1).val) :
    (iblk5 V c 0 t : Vec Ideal S10000x1 .f32) y = (V c main_v104 : S100000x1.Idx → EReal) i := by
  obtain ⟨e0, e1, -⟩ := idx5 t
  unfold iblk5
  rw [View.read_apply]
  show V c main_v104 _ = V c main_v104 _
  congr 1
  funext a
  apply Fin.ext
  match a with
  | ⟨0, _⟩ => show win5_0.index t 0 * 10000 + 1 * (y 0).val = (i 0).val; rw [e0, h0]; omega
  | ⟨1, _⟩ => show win5_0.index t 1 * 1 + 1 * (y 1).val = (i 1).val; rw [e1, h1]; omega

/-- The bias block at every point is the whole one-row bias array. -/
theorem iblk5_1_apply (c : Dev nD) (t : Fin cfg5.N) (y : S1x1.Idx) :
    (iblk5 V c 1 t : Vec Ideal S1x1 .f32) y = (V c main_v105 : S1x1.Idx → EReal) y := by
  obtain ⟨-, -, e2, e3, -⟩ := idx5 t
  unfold iblk5
  rw [View.read_apply]
  show V c main_v105 _ = V c main_v105 _
  congr 1
  funext a
  apply Fin.ext
  match a with
  | ⟨0, _⟩ => show win5_1.index t 0 * 1 + 1 * (y 0).val = (y 0).val; rw [e2]; omega
  | ⟨1, _⟩ => show win5_1.index t 1 * 1 + 1 * (y 1).val = (y 1).val; rw [e3]; omega

/-- What point t writes back is block t of the array with the bias added to every row. -/
theorem flushed5 (c : Dev nD) (t : Fin cfg5.N) :
    (dat5 V c).flushed 2 t = ((cfg5.win 2).blk t).view.read (Elt Ideal) (Cert.Gcn.bias1Row (F := Ideal) (V c main_v104) (V c main_v105)) := by
  show (cfg5.win 2).cut (grid5.coords t) ((dat5 V c).after 2 t) = _
  rw [after5_2]
  unfold out5_2
  rw [View.canon_unit_zero zero_off5]
  simp only [View.ld_unit_zero (S := S10000x1) zero_off5, View.ld_unit_zero (S := S1x1) zero_off5]
  have ht := lt_ten5 t
  obtain ⟨-, -, -, -, e4, e5⟩ := idx5 t
  funext j
  obtain ⟨p, q, rfl⟩ : ∃ (p : Fin 10000) (q : Fin 1), j = ix2 p q := ⟨j 0, j 1, eq_ix2 j⟩
  show k5_pay1 (iblk5 V c 0 t) (iblk5 V c 1 t) (ix2 p q)
    = Cert.Gcn.bias1Row (F := Ideal) (V c main_v104) (V c main_v105) (((cfg5.win 2).blk t).view.emb (ix2 p q))
  have he : ((cfg5.win 2).blk t).view.emb (ix2 p q) = ix2 (⟨t.val * 10000 + p.val, by omega⟩ : Fin 100000) q :=
    funext fun a => Fin.ext (by
      match a with
      | ⟨0, _⟩ => show win5_2.index t 0 * 10000 + 1 * p.val = t.val * 10000 + p.val; rw [e4]; omega
      | ⟨1, _⟩ => show win5_2.index t 1 * 1 + 1 * q.val = q.val; rw [e5]; omega)
  rw [he]
  refine (pay5_apply (iblk5 V c 0 t) (iblk5 V c 1 t) p q).trans ?_
  refine Eq.trans ?_ (bias1Row_apply5 (V c main_v104) (V c main_v105) ⟨t.val * 10000 + p.val, by omega⟩ q).symm
  rw [iblk5_0_apply V c t (ix2 p q) (ix2 (⟨t.val * 10000 + p.val, by omega⟩ : Fin 100000) q) rfl rfl,
    iblk5_1_apply V c t (ix2 (0 : Fin 1) q)]

/-- An index of the output array is in point t's block iff each of its coordinates is in the block's range on its axis. -/
theorem mem_blk5 (t : Fin cfg5.N) (i : S100000x1.Idx) :
    i ∈ ((cfg5.win 2).blk t).view.set ↔ ∀ a : Fin 2, win5_2.index t a * S10000x1.size a ≤ (i a).val
      ∧ (i a).val < win5_2.index t a * S10000x1.size a + S10000x1.size a := by
  show i ∈ ((View.whole main_v106).slice (win5_2.rect t)).set ↔ _
  rw [View.set_slice_whole, Rect.mem_set_unit]
  exact Iff.rfl

/-- Row r of the output lies in the block of point r / 10000, which is written back. -/
theorem cover5 (i : S100000x1.Idx) : ∃ t : Fin cfg5.N, (cfg5.win 2).flush t = true ∧ i ∈ ((cfg5.win 2).blk t).view.set := by
  have hi0 : (i 0).val < 100000 := (i 0).isLt
  have hi1 : (i 1).val < 1 := (i 1).isLt
  refine ⟨⟨(i 0).val / 10000, by rw [show cfg5.N = 10 from N_5]; omega⟩, flush5_2 _, ?_⟩
  rw [mem_blk5]
  obtain ⟨-, -, -, -, e4, e5⟩ := idx5 ⟨(i 0).val / 10000, by rw [show cfg5.N = 10 from N_5]; omega⟩
  intro a
  match a with
  | ⟨0, _⟩ =>
    show win5_2.index _ 0 * 10000 ≤ (i 0).val ∧ (i 0).val < win5_2.index _ 0 * 10000 + 10000
    rw [e4]
    show (i 0).val / 10000 * 10000 ≤ (i 0).val ∧ (i 0).val < (i 0).val / 10000 * 10000 + 10000
    omega
  | ⟨1, _⟩ =>
    show win5_2.index _ 1 * 1 ≤ (i 1).val ∧ (i 1).val < win5_2.index _ 1 * 1 + 1
    rw [e5]
    omega

/-- THE OUTPUT ARRAY after the kernel: the aggregated features with the bias row added to every row. -/
theorem bias1_region (c : Dev nD) :
    (dat5 (F := Ideal) V c).arrAt 2 cfg5.N = Cert.Gcn.bias1Row (F := Ideal) (V c main_v104) (V c main_v105) :=
  (dat5 V c).arrAt_eq_of_cover 2 (Cert.Gcn.bias1Row (F := Ideal) (V c main_v104) (V c main_v105)) (fun t _ => flushed5 V c t) cover5

end Cert.KernelIdeal.Hand

end
-- ==== Proof.KernelValue.lean ====
/-
  The kernel program's result, read back through its twelve segments to the specification.

  Walking from the launch: the two opening host stretches compute the edge lists and d = deg^(-1/2); region 0 multiplies
  the features by the first weight matrix; a host stretch aggregates over the edges; region 1 adds the bias and takes
  the relu (the first layer's output); region 2 multiplies by the second weight matrix; a host stretch aggregates; region
  3 adds the bias and takes the relu (the second layer's output); region 4 multiplies by the third weight matrix; a host
  stretch aggregates; region 5 adds the bias (the third layer's output); the closing host stretch is the logistic
  readout. Each host stretch is one named function of what it read (it shares its operations with the reference), each
  region's output array is the layer's dense step on the whole array, and a buffer nobody writes in between (the edge
  lists, d, the arguments) is carried unchanged. Composed, the result buffer holds `Gcn.net` of the eight arguments.

  The one place where the two programs spell a value differently besides the regions: the kernel reshapes a bias
  b : [f] to a row [1, f] where the reference broadcasts it to [1, f]; both rows hold b(q) at (0, q).
-/
import proofs.«107933_j30786325577983_1_alg».proof.Proof.Kept
import proofs.«107933_j30786325577983_1_alg».proof.Proof.HostStretch
import proofs.«107933_j30786325577983_1_alg».proof.Proof.Lin1Region
import proofs.«107933_j30786325577983_1_alg».proof.Proof.Lin2Region
import proofs.«107933_j30786325577983_1_alg».proof.Proof.Lin3Region
import proofs.«107933_j30786325577983_1_alg».proof.Proof.Bias1Region
import proofs.«107933_j30786325577983_1_alg».proof.Proof.Bias3Region
import proofs.«107933_j30786325577983_1_alg».proof.Proof.Bias5Region

noncomputable section

open Idealize.ShloMosaic Idealize.ShloMosaic.TcCoe Idealize.SL.Sem Idealize.ShloMosaic.ValueIdx

namespace Cert.KernelIdeal.Hand

open Cert.KernelIdeal Cert.KernelIdeal.Gen

/-! ## A bias as a one-row array: reshaped or broadcast, the same row -/

section Rows
variable {α : Type}

theorem row64 (b : S64.Idx → α) :
    shapeCast S1x64 b shapeCasts_S64_S1x64
      = broadcastInDim Cert.ReferenceIdeal.S1x64 ![1] Cert.ReferenceIdeal.Gen.bcast_S64_S1x64_1 b := by
  funext i
  have hi : (i 0).val < 1 := (i 0).isLt
  refine (shapeCast_apply b _ i (ix1 (⟨(i 1).val, (i 1).isLt⟩ : Fin 64)) ?_).trans
    (broadcastInDim_apply _ _ b i (ix1 (⟨(i 1).val, (i 1).isLt⟩ : Fin 64)) fun a => ?_).symm
  · rw [Shape.rowMajor_val_one, Shape.rowMajor_val_two]
    show (i 1).val = (i 0).val * 64 + (i 1).val
    omega
  · match a with
    | ⟨0, _⟩ => show (i 1).val = if (64 : Nat) = 1 then 0 else (i 1).val; rw [if_neg (by decide)]

theorem row32 (b : S32.Idx → α) :
    shapeCast S1x32 b shapeCasts_S32_S1x32
      = broadcastInDim Cert.ReferenceIdeal.S1x32 ![1] Cert.ReferenceIdeal.Gen.bcast_S32_S1x32_1 b := by
  funext i
  have hi : (i 0).val < 1 := (i 0).isLt
  refine (shapeCast_apply b _ i (ix1 (⟨(i 1).val, (i 1).isLt⟩ : Fin 32)) ?_).trans
    (broadcastInDim_apply _ _ b i (ix1 (⟨(i 1).val, (i 1).isLt⟩ : Fin 32)) fun a => ?_).symm
  · rw [Shape.rowMajor_val_one, Shape.rowMajor_val_two]
    show (i 1).val = (i 0).val * 32 + (i 1).val
    omega
  · match a with
    | ⟨0, _⟩ => show (i 1).val = if (32 : Nat) = 1 then 0 else (i 1).val; rw [if_neg (by decide)]

theorem row1 (b : S1.Idx → α) :
    shapeCast S1x1 b shapeCasts_S1_S1x1
      = broadcastInDim Cert.ReferenceIdeal.S1x1 ![1] Cert.ReferenceIdeal.Gen.bcast_S1_S1x1_1 b := by
  funext i
  have hi0 : (i 0).val < 1 := (i 0).isLt
  have hi1 : (i 1).val < 1 := (i 1).isLt
  refine (shapeCast_apply b _ i (ix1 (⟨0, Nat.one_pos⟩ : Fin 1)) ?_).trans
    (broadcastInDim_apply _ _ b i (ix1 (⟨0, Nat.one_pos⟩ : Fin 1)) fun a => ?_).symm
  · rw [Shape.rowMajor_val_one, Shape.rowMajor_val_two]
    show 0 = (i 0).val * 1 + (i 1).val
    omega
  · match a with
    | ⟨0, _⟩ => show 0 = if (1 : Nat) = 1 then 0 else (i 1).val; rw [if_pos rfl]

end Rows

/-! ## The walk -/

variable (m : (ℓ : Loc nD τ sig) → Buf (Elt Ideal) ℓ) (ρ : Dev nD → PrngReg) (c : Dev nD)

/-- The edge lists and d, as the opening stretches leave them. -/
theorem W2_src : W2 m ρ c (Proc.devRef .tc main_v3) = Cert.Gcn.srcOf (m ((c : Thread nD τ).loc main_arg1)) :=
  host0_v3 (W0 m ρ c)
theorem W2_dst : W2 m ρ c (Proc.devRef .tc main_v6) = Cert.Gcn.dstOf (m ((c : Thread nD τ).loc main_arg1)) :=
  host0_v6 (W0 m ρ c)
theorem W2_dis : W2 m ρ c (Proc.devRef .tc main_v14)
    = Cert.Gcn.invSqrtDeg (F := Ideal) (Cert.Gcn.dstOf (m ((c : Thread nD τ).loc main_arg1))) :=
  host0_v14 (W0 m ρ c)

/-- Region 0 leaves the features times the first weight matrix. -/
theorem W3_lin1 : W3 m ρ c (Proc.devRef .tc main_v15)
    = Cert.Gcn.lin1 (F := Ideal) (m ((c : Thread nD τ).loc main_arg0)) (m ((c : Thread nD τ).loc main_arg2)) := by
  refine (W3_arr m ρ c 2).trans ((lin1_region (V2 m ρ) c).trans ?_)
  show Cert.Gcn.lin1 (F := Ideal) (W2 m ρ c (Proc.devRef .tc main_arg0)) (W2 m ρ c (Proc.devRef .tc main_arg2)) = _
  rw [W2_arg0, W2_arg2]

/-- Region 1 leaves the first layer's output. -/
theorem W5_layer1 : W5 m ρ c (Proc.devRef .tc main_v45)
    = Cert.Gcn.layer1 (F := Ideal) (m ((c : Thread nD τ).loc main_arg0)) (m ((c : Thread nD τ).loc main_arg1))
        (m ((c : Thread nD τ).loc main_arg2)) (m ((c : Thread nD τ).loc main_arg3)) := by
  refine (W5_arr m ρ c 2).trans ((biasRelu64_region (V4 m ρ) c).trans ?_)
  show Cert.Gcn.biasRelu64Row (F := Ideal) (StableHlo.after hostOps1 (W3 m ρ c) (Proc.devRef .tc main_v43))
    (StableHlo.after hostOps1 (W3 m ρ c) (Proc.devRef .tc main_v44)) = _
  rw [host1_v43, host1_v44, W3_v3, W3_v6, W3_v14, W3_arg3, W2_src, W2_dst, W2_dis, W3_lin1, row64]
  rfl

/-- Region 2 leaves the first layer's output times the second weight matrix. -/
theorem W6_lin2 : W6 m ρ c (Proc.devRef .tc main_v46)
    = Cert.Gcn.lin2 (F := Ideal) (Cert.Gcn.layer1 (m ((c : Thread nD τ).loc main_arg0)) (m ((c : Thread nD τ).loc main_arg1))
        (m ((c : Thread nD τ).loc main_arg2)) (m ((c : Thread nD τ).loc main_arg3))) (m ((c : Thread nD τ).loc main_arg4)) := by
  refine (W6_arr m ρ c 2).trans ((lin2_region (V5 m ρ) c).trans ?_)
  show Cert.Gcn.lin2 (F := Ideal) (W5 m ρ c (Proc.devRef .tc main_v45)) (W5 m ρ c (Proc.devRef .tc main_arg4)) = _
  rw [W5_layer1, W5_arg4]

/-- Region 3 leaves the second layer's output. -/
theorem W8_layer2 : W8 m ρ c (Proc.devRef .tc main_v76)
    = Cert.Gcn.layer2 (F := Ideal) (Cert.Gcn.layer1 (m ((c : Thread nD τ).loc main_arg0)) (m ((c : Thread nD τ).loc main_arg1))
        (m ((c : Thread nD τ).loc main_arg2)) (m ((c : Thread nD τ).loc main_arg3))) (m ((c : Thread nD τ).loc main_arg1))
        (m ((c : Thread nD τ).loc main_arg4)) (m ((c : Thread nD τ).loc main_arg5)) := by
  refine (W8_arr m ρ c 2).trans ((biasRelu32_region (V7 m ρ) c).trans ?_)
  show Cert.Gcn.biasRelu32Row (F := Ideal) (StableHlo.after hostOps3 (W6 m ρ c) (Proc.devRef .tc main_v74))
    (StableHlo.after hostOps3 (W6 m ρ c) (Proc.devRef .tc main_v75)) = _
  rw [host3_v74, host3_v75, W6_v3, W6_v6, W6_v14, W6_arg5, W2_src, W2_dst, W2_dis, W6_lin2, row32]
  rfl

/-- Region 4 leaves the second layer's output times the third weight matrix. -/
theorem W9_lin3 : W9 m ρ c (Proc.devRef .tc main_v77)
    = Cert.Gcn.lin3 (F := Ideal) (Cert.Gcn.layer2 (Cert.Gcn.layer1 (m ((c : Thread nD τ).loc main_arg0)) (m ((c : Thread nD τ).loc main_arg1))
        (m ((c : Thread nD τ).loc main_arg2)) (m ((c : Thread nD τ).loc main_arg3))) (m ((c : Thread nD τ).loc main_arg1))
        (m ((c : Thread nD τ).loc main_arg4)) (m ((c : Thread nD τ).loc main_arg5))) (m ((c : Thread nD τ).loc main_arg6)) := by
  refine (W9_arr m ρ c 2).trans ((lin3_region (V8 m ρ) c).trans ?_)
  show Cert.Gcn.lin3 (F := Ideal) (W8 m ρ c (Proc.devRef .tc main_v76)) (W8 m ρ c (Proc.devRef .tc main_arg6)) = _
  rw [W8_layer2, W8_arg6]

/-- Region 5 leaves the third layer's output. -/
theorem W11_layer3 : W11 m ρ c (Proc.devRef .tc main_v106)
    = Cert.Gcn.layer3 (F := Ideal) (Cert.Gcn.layer2 (Cert.Gcn.layer1 (m ((c : Thread nD τ).loc main_arg0)) (m ((c : Thread nD τ).loc main_arg1))
        (m ((c : Thread nD τ).loc main_arg2)) (m ((c : Thread nD τ).loc main_arg3))) (m ((c : Thread nD τ).loc main_arg1))
        (m ((c : Thread nD τ).loc main_arg4)) (m ((c : Thread nD τ).loc main_arg5))) (m ((c : Thread nD τ).loc main_arg1))
        (m ((c : Thread nD τ).loc main_arg6)) (m ((c : Thread nD τ).loc main_arg7)) := by
  refine (W11_arr m ρ c 2).trans ((bias1_region (V10 m ρ) c).trans ?_)
  show Cert.Gcn.bias1Row (F := Ideal) (StableHlo.after hostOps5 (W9 m ρ c) (Proc.devRef .tc main_v104))
    (StableHlo.after hostOps5 (W9 m ρ c) (Proc.devRef .tc main_v105)) = _
  rw [host5_v104, host5_v105, W9_v3, W9_v6, W9_v14, W9_arg7, W2_src, W2_dst, W2_dis, W9_lin3, row1]
  rfl

/-- THE RESULT BUFFER after the last host stretch: the network of the eight arguments. -/
theorem W12_net : W12 m ρ c (Proc.devRef .tc main_v113)
    = Cert.Gcn.net (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  show StableHlo.after hostOps6 (W11 m ρ c) (Proc.devRef .tc main_v113) = _
  rw [host6_v113, W11_layer3]
  rfl

end Cert.KernelIdeal.Hand

end
-- ==== Proof.lean ====
/-
  A three-layer graph-convolution network on 100000 nodes and 3300000 edges, computed two ways, is one function.

  The kernel's program runs each layer's two dense steps — the features times the layer's weight matrix, and the bias
  added after the aggregation over the edges (followed by relu in the first two layers) — as tiled regions over blocks
  of 10000 nodes, with the matrix products taken on operands cast to bf16 into an f32 accumulator; everything that
  depends on the graph (the edge lists with the self-loops appended, d = deg^(-1/2), the gather of source rows, the
  scaling by d(source)·d(target), the scatter-add into the target rows) and the final logistic readout are host
  operations. The reference does all of it on the host with whole-array dot products.

  At the extended reals a cast between float formats is the identity, and a product of a block of rows by a matrix,
  accumulated from zero, is entry by entry Σ_k x(r, k)·w(k, q), the entry of the whole product; a bias row added to a
  block of rows and the maximum with 0 are entrywise. So each region leaves in its output array exactly the reference's
  dense step on the whole array, the host stretches between the regions are the reference's own operations, and both
  result buffers hold `Gcn.net` of the eight argument arrays. No algebraic law beyond reading a sum over a one-axis
  contraction as a sum over k is used; in particular nothing here needs the inputs to be finite.

  The three frames: the two kernel programs' are the generated frame certificates; the reference's is its run with the
  result dropped. The idealization ledger is empty, so `preserves` has nothing to say.
-/
import proofs.«107933_j30786325577983_1_alg».proof.Defs
import proofs.«107933_j30786325577983_1_alg».proof.Proof.Gen.Kernel
import proofs.«107933_j30786325577983_1_alg».proof.Proof.Gen.Kernel.Skeleton
import proofs.«107933_j30786325577983_1_alg».proof.Proof.Gen.Kernel.Launch
import proofs.«107933_j30786325577983_1_alg».proof.Proof.Gen.Kernel.Points
import proofs.«107933_j30786325577983_1_alg».proof.Proof.Gen.Kernel.Frame
import proofs.«107933_j30786325577983_1_alg».proof.Proof.Gen.KernelIdeal
import proofs.«107933_j30786325577983_1_alg».proof.Proof.Gen.KernelIdeal.Skeleton
import proofs.«107933_j30786325577983_1_alg».proof.Proof.Gen.KernelIdeal.Launch
import proofs.«107933_j30786325577983_1_alg».proof.Proof.Gen.KernelIdeal.Points
import proofs.«107933_j30786325577983_1_alg».proof.Proof.Gen.KernelIdeal.Frame
import proofs.«107933_j30786325577983_1_alg».proof.Proof.Gen.ReferenceIdeal
import proofs.«107933_j30786325577983_1_alg».proof.Proof.Gen.Pre_finite_inputs
import proofs.«107933_j30786325577983_1_alg».proof.Proof.RefRun
import proofs.«107933_j30786325577983_1_alg».proof.Proof.RefValue
import proofs.«107933_j30786325577983_1_alg».proof.Proof.KernelRun
import proofs.«107933_j30786325577983_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs, run from memories that agree on the arguments, end with their result buffers at the network of the
    arguments: the kernel's by the walk through its segments, the reference's by its run read back. -/
theorem algebraic : Cert.algebraic_KernelIdeal_ReferenceIdeal := by
  intro m ρ m' ρ' _ hagree
  refine ⟨fun c => Cert.Gcn.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.W12_net m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Hand.run_net (F := Ideal) m' ρ')
    have e := hagree c
    show Cert.Gcn.net (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e.1, e.2.1, e.2.2.1, e.2.2.2.1, e.2.2.2.2.1, e.2.2.2.2.2.1, e.2.2.2.2.2.2.1, e.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
